-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2000x512 : Shape := ⟨2, ![2000, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2000x512 : S_.BroadcastsInDim S2000x512 (![] : Fin 0 → Fin S2000x512.rank)
  reducesTo_S2000x512_S_d0_1 : S2000x512.ReducesTo [0, 1] S_

variable [Facts]

def fn {F : FTy → Type} [FloatOps F] (main_arg0 : FVec F S16384x512 .f32) (main_arg1 : FVec F S2000x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2000x512 .f32 := Host.absf main_arg1
  let main_cst_0 : FVec F S_ .f32 := constant S_ .f32 0x7F800000#32
  let main_v5 : FVec F S2000x512 .f32 := broadcastInDim S2000x512 ![] bcast_S_S2000x512 main_cst_0
  let main_v6 : IVec S2000x512 1 := cmpf .olt main_v4 main_v5
  let main_c_1 : IVec S_ 1 := constantI S_ 1 1#1
  let main_v7 : IVec S_ 1 := (fun x v => Host.reduce IntOp.andi x v reducesTo_S2000x512_S_d0_1 h_S_) main_v6 main_c_1
  let main_v8 : IVec S_ 1 := andi main_v3 main_v7
  main_v8
-- ==== Kernel.lean ====
abbrev S16384x512 : Shape := ⟨2, ![16384, 512]⟩
abbrev S2000x512 : Shape := ⟨2, ![2000, 512]⟩
abbrev S_ : Shape := ⟨0, ![]⟩
abbrev S2000 : Shape := ⟨1, ![2000]⟩
abbrev S1x2000 : Shape := ⟨2, ![1, 2000]⟩
abbrev S1x1 : Shape := ⟨2, ![1, 1]⟩
abbrev S256x512 : Shape := ⟨2, ![256, 512]⟩
abbrev S256x2000 : Shape := ⟨2, ![256, 2000]⟩
abbrev S256 : Shape := ⟨1, ![256]⟩
abbrev S256x1 : Shape := ⟨2, ![256, 1]⟩
abbrev S1 : Shape := ⟨1, ![1]⟩

abbrev nBuf : Space → Nat
  | .hbm => 10
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S2000x512, .f32⟩
  | .hbm, ⟨2, _⟩ => ⟨S2000x512, .f32⟩
  | .hbm, ⟨3, _⟩ => ⟨S_, .f32⟩
  | .hbm, ⟨4, _⟩ => ⟨S2000, .f32⟩
  | .hbm, ⟨5, _⟩ => ⟨S2000, .f32⟩
  | .hbm, ⟨6, _⟩ => ⟨S1x2000, .f32⟩
  | .hbm, ⟨7, _⟩ => ⟨S16384x512, .f32⟩
  | .hbm, ⟨8, _⟩ => ⟨S1x1, .f32⟩
  | .hbm, ⟨9, _⟩ => ⟨S_, .f32⟩
  | .local _ .vmem, ⟨0, _⟩ => ⟨S256x512, .f32⟩
  | .local _ .vmem, ⟨1, _⟩ => ⟨S256x512, .f32⟩
  | .local _ .vmem, ⟨2, _⟩ => ⟨S2000x512, .f32⟩
  | .local _ .vmem, ⟨3, _⟩ => ⟨S1x2000, .f32⟩
  | .local _ .vmem, ⟨4, _⟩ => ⟨S256x512, .f32⟩
  | .local _ .vmem, ⟨5, _⟩ => ⟨S256x512, .f32⟩
  | .local _ .vmem, ⟨6, _⟩ => ⟨S1x1, .f32⟩
  | .local _ .vmem, ⟨7, _⟩ => ⟨S1x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v65 : BitVec 1 := Scalar.cmpi .eq arg0 c63_i32
  let v66 : BitVec 32 := Scalar.extui v65
  let c0_i32_27 : BitVec 32 := 0#32
  let v67 : BitVec 1 := Scalar.cmpi .ne v66 c0_i32_27
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  reducesTo_S2000x512_S2000_d1 : S2000x512.ReducesTo [1] S2000
  h_S_ : 0 < S_.numel
  shapeCasts_S2000_S1x2000 : S2000.ShapeCasts S1x2000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x512_S256x512_0_0 : ∀ a, (![0, 0] : Fin 2 → Nat) a + S256x512.size a ≤ S256x512.size a
  h_S256x512 : 0 < S256x512.numel
  inb_S2000x512_S2000x512_0_0 : ∀ a, (![0, 0] : Fin 2 → Nat) a + S2000x512.size a ≤ S2000x512.size a
  h_S2000x512 : 0 < S2000x512.numel
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  bitsLt_bf16_f32 : FTy.bits .bf16 < FTy.bits .f32
  reduces_S256x512_S256 : S256x512.Reduces [1] S256
  shapeCasts_S256_S256x1 : S256.ShapeCasts S256x1
  broadcasts_S256x1_S256x2000 : S256x1.Broadcasts S256x2000
  broadcasts_S1x2000_S256x2000 : S1x2000.Broadcasts S256x2000
  reduces_S256x2000_S256 : S256x2000.Reduces [1] S256
  reduces_S256x1_S1 : S256x1.Reduces [0] S1
  shapeCasts_S1_S1x1 : S1.ShapeCasts S1x1
  shapeCasts_S1x1_S_ : S1x1.ShapeCasts S_
  dot_S256x512_S2000x512_S256x2000_1_1_0_0_n_n_wf : DotDims.WF S256x512 S2000x512 S256x2000 [1] [1] [0] [0] [] []
  dot_S256x2000_S2000x512_S256x512_1_0_0_1_n_n_wf : DotDims.WF S256x2000 S2000x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S2000x512.size a
  hwx0_1 : ∀ i : grid0.Coords, EltTy.bits .f32 = 32 ∨ (Rect.block (s := S2000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2000.size a ≤ S1x2000.size a
  hwx0_2 : ∀ i : grid0.Coords, EltTy.bits .f32 = 32 ∨ (Rect.block (s := S1x2000) S1x2000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S16384x512.size a
  hwx0_3 : ∀ i : grid0.Coords, EltTy.bits .f32 = 32 ∨ (Rect.block (s := S16384x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S256x512_S2000x512_S256x2000_1_1_0_0_n_n : DotDims S256x512 S2000x512 S256x2000 where
  lhsContracting := [1]
  rhsContracting := [1]
  lhsNonContracting := [0]
  rhsNonContracting := [0]
  lhsBatch := []
  rhsBatch := []
  wf := dot_S256x512_S2000x512_S256x2000_1_1_0_0_n_n_wf
def dot_S256x2000_S2000x512_S256x512_1_0_0_1_n_n : DotDims S256x2000 S2000x512 S256x512 where
  lhsContracting := [1]
  rhsContracting := [0]
  lhsNonContracting := [0]
  rhsNonContracting := [1]
  lhsBatch := []
  rhsBatch := []
  wf := dot_S256x2000_S2000x512_S256x512_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S256x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x512 : Shape := ⟨2, ![16384, 512]⟩
abbrev S2000x512 : Shape := ⟨2, ![2000, 512]⟩
abbrev S16384x2000 : Shape := ⟨2, ![16384, 2000]⟩
abbrev S_ : Shape := ⟨0, ![]⟩
abbrev S16384 : Shape := ⟨1, ![16384]⟩
abbrev S16384x1 : Shape := ⟨2, ![16384, 1]⟩
abbrev S2000 : Shape := ⟨1, ![2000]⟩
abbrev S2000x1 : Shape := ⟨2, ![2000, 1]⟩
abbrev S1x2000 : Shape := ⟨2, ![1, 2000]⟩

abbrev nBuf : Space → Nat
  | .hbm => 70
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2000x512, .f32⟩
  | .hbm, ⟨2, _⟩ => ⟨S16384x2000, .f32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S2000x512, .f32⟩
  | .hbm, ⟨9, _⟩ => ⟨S_, .f32⟩
  | .hbm, ⟨10, _⟩ => ⟨S2000, .f32⟩
  | .hbm, ⟨11, _⟩ => ⟨S2000x1, .f32⟩
  | .hbm, ⟨12, _⟩ => ⟨S2000x1, .f32⟩
  | .hbm, ⟨13, _⟩ => ⟨S1x2000, .f32⟩
  | .hbm, ⟨14, _⟩ => ⟨S16384x2000, .f32⟩
  | .hbm, ⟨15, _⟩ => ⟨S16384x2000, .f32⟩
  | .hbm, ⟨16, _⟩ => ⟨S16384x2000, .f32⟩
  | .hbm, ⟨17, _⟩ => ⟨S_, .f32⟩
  | .hbm, ⟨18, _⟩ => ⟨S16384x2000, .f32⟩
  | .hbm, ⟨19, _⟩ => ⟨S16384x2000, .f32⟩
  | .hbm, ⟨20, _⟩ => ⟨S16384x2000, .f32⟩
  | .hbm, ⟨21, _⟩ => ⟨S_, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S16384x1, .f32⟩
  | .hbm, ⟨27, _⟩ => ⟨S16384x2000, .f32⟩
  | .hbm, ⟨28, _⟩ => ⟨S16384x2000, .f32⟩
  | .hbm, ⟨29, _⟩ => ⟨S16384x2000, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S16384x2000, .f32⟩
  | .hbm, ⟨34, _⟩ => ⟨S16384x2000, .f32⟩
  | .hbm, ⟨35, _⟩ => ⟨S_, .f32⟩
  | .hbm, ⟨36, _⟩ => ⟨S16384x2000, .f32⟩
  | .hbm, ⟨37, _⟩ => ⟨S16384x2000, .f32⟩
  | .hbm, ⟨38, _⟩ => ⟨S_, .f32⟩
  | .hbm, ⟨39, _⟩ => ⟨S16384x2000, .f32⟩
  | .hbm, ⟨40, _⟩ => ⟨S16384x2000, .f32⟩
  | .hbm, ⟨41, _⟩ => ⟨S16384x2000, .f32⟩
  | .hbm, ⟨42, _⟩ => ⟨S_, .f32⟩
  | .hbm, ⟨43, _⟩ => ⟨S16384x2000, .f32⟩
  | .hbm, ⟨44, _⟩ => ⟨S16384x2000, .f32⟩
  | .hbm, ⟨45, _⟩ => ⟨S16384x2000, .f32⟩
  | .hbm, ⟨46, _⟩ => ⟨S_, .f32⟩
  | .hbm, ⟨47, _⟩ => ⟨S16384x2000, .f32⟩
  | .hbm, ⟨48, _⟩ => ⟨S16384x2000, .f32⟩
  | .hbm, ⟨49, _⟩ => ⟨S16384x2000, .f32⟩
  | .hbm, ⟨50, _⟩ => ⟨S16384x2000, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x2000, .f32⟩
  | .hbm, ⟨58, _⟩ => ⟨S16384x2000, .f32⟩
  | .hbm, ⟨59, _⟩ => ⟨S16384x512, .f32⟩
  | .hbm, ⟨60, _⟩ => ⟨S16384x2000, .f32⟩
  | .hbm, ⟨61, _⟩ => ⟨S_, .f32⟩
  | .hbm, ⟨62, _⟩ => ⟨S16384x2000, .f32⟩
  | .hbm, ⟨63, _⟩ => ⟨S16384x2000, .f32⟩
  | .hbm, ⟨64, _⟩ => ⟨S16384x2000, .f32⟩
  | .hbm, ⟨65, _⟩ => ⟨S16384x2000, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_call1_v0 : Ref sig .tc := ⟨.hbm, 8, rfl⟩
abbrev main_call1_cst : Ref sig .tc := ⟨.hbm, 9, rfl⟩
abbrev main_call1_v1 : Ref sig .tc := ⟨.hbm, 10, rfl⟩
abbrev main_call1_v2 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_call2_cst : Ref sig .tc := ⟨.hbm, 38, rfl⟩
abbrev main_call2_v0 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S2000x512_S2000_d1 : S2000x512.ReducesTo [1] S2000
  bcast_S2000_S2000x1_0 : S2000.BroadcastsInDim S2000x1 (![0] : Fin 1 → Fin S2000x1.rank)
  transposes_S2000x1_S1x2000_1_0 : S2000x1.Transposes [1, 0] S1x2000
  bcast_S16384x1_S16384x2000_0_1 : S16384x1.BroadcastsInDim S16384x2000 (![0, 1] : Fin 2 → Fin S16384x2000.rank)
  bcast_S1x2000_S16384x2000_0_1 : S1x2000.BroadcastsInDim S16384x2000 (![0, 1] : Fin 2 → Fin S16384x2000.rank)
  bcast_S_S16384x2000 : S_.BroadcastsInDim S16384x2000 (![] : Fin 0 → Fin S16384x2000.rank)
  reducesTo_S16384x2000_S16384_d1 : S16384x2000.ReducesTo [1] S16384
  bcast_S_S16384 : S_.BroadcastsInDim S16384 (![] : Fin 0 → Fin S16384.rank)
  bcast_S_S16384x1 : S_.BroadcastsInDim S16384x1 (![] : Fin 0 → Fin S16384x1.rank)
  reducesTo_S16384x2000_S_d0_1 : S16384x2000.ReducesTo [0, 1] S_
  dot_S16384x512_S2000x512_S16384x2000_1_1_0_0_n_n_wf : DotDims.WF S16384x512 S2000x512 S16384x2000 [1] [1] [0] [0] [] []
  dot_S16384x2000_S2000x512_S16384x512_1_0_0_1_n_n_wf : DotDims.WF S16384x2000 S2000x512 S16384x512 [1] [0] [0] [1] [] []

variable [Facts₀]

def dot_S16384x512_S2000x512_S16384x2000_1_1_0_0_n_n : DotDims S16384x512 S2000x512 S16384x2000 where
  lhsContracting := [1]
  rhsContracting := [1]
  lhsNonContracting := [0]
  rhsNonContracting := [0]
  lhsBatch := []
  rhsBatch := []
  wf := dot_S16384x512_S2000x512_S16384x2000_1_1_0_0_n_n_wf
def dot_S16384x2000_S2000x512_S16384x512_1_0_0_1_n_n : DotDims S16384x2000 S2000x512 S16384x512 where
  lhsContracting := [1]
  rhsContracting := [0]
  lhsNonContracting := [0]
  rhsNonContracting := [1]
  lhsBatch := []
  rhsBatch := []
  wf := dot_S16384x2000_S2000x512_S16384x512_1_0_0_1_n_n_wf

class Facts : Prop extends Facts₀ where

variable [Facts]
-- ==== Proof.Spec.lean ====
/-
  The mathematics both programs compute, stated once, row by row, on the extended reals.

  For one row x of the batch (512 features) and the table of 2000 memory rows:
  the cosine logit against memory row j is  <x, mem j> / max (|x| * |mem j|, eps_cos);
  a softmax over j (the row maximum subtracted first, taken as a fold of max from -oo);
  each softmax weight s is shrunk to  max (s - thr, 0) * s / (|s - thr| + eps);
  the shrunk weights are renormalised by  max (sum of their absolute values, eps);
  the row of the result is the weighted sum of the memory rows, and the row's entropy is
  sum over j of  -w j * log (w j + eps).
  The second result is  coef * (the sum over all rows of the row entropies).

  Absolute value is written max a (-a), the extended reals' own form of it. Every constant stays
  the binary word both programs print; only the zero word is ever evaluated.
-/
import Idealize.ShloMosaic.PureOps.Ideal
import Idealize.ShloMosaic.PureOps.Ideal.Laws
import Idealize.ShloMosaic.Lib.ValueIdx

noncomputable section

namespace Cert.SparseRead

open Idealize.ShloMosaic Idealize.ShloMosaic.ValueIdx

/-- The words of the constants, as extended reals. -/
abbrev zeroW : EReal := Ideal.ofBits .f32 0x00000000#32
abbrev negInf : EReal := Ideal.ofBits .f32 0xFF800000#32
abbrev epsCos : EReal := Ideal.ofBits .f32 0x322BCC77#32
abbrev thr : EReal := Ideal.ofBits .f32 0x3A03126F#32
abbrev epsS : EReal := Ideal.ofBits .f32 0x2B8CBCCC#32
abbrev coef : EReal := Ideal.ofBits .f32 0x3951B717#32

/-- The euclidean norm of a row of 512 features. -/
def norm (v : Fin 512 → EReal) : EReal := Ideal.sqrt (∑ f : Fin 512, v f * v f)

/-- The cosine logit of the row xr against memory row j, the memory rows' norms given as mn. -/
def logit (xr : Fin 512 → EReal) (mem : Fin 2000 → Fin 512 → EReal) (mn : Fin 2000 → EReal) (j : Fin 2000) : EReal :=
  Ideal.div (∑ f : Fin 512, xr f * mem j f) (max (norm xr * mn j) epsCos)

/-- The maximum of a row of logits, as the fold of max from -oo. -/
def rowMax (l : Fin 2000 → EReal) : EReal := (Finset.univ : Finset (Fin 2000)).fold max negInf l

/-- The exponential of a logit after the row maximum is subtracted. -/
def expo (l : Fin 2000 → EReal) (j : Fin 2000) : EReal := Ideal.exp (l j - rowMax l)

/-- The softmax weight. -/
def soft (l : Fin 2000 → EReal) (j : Fin 2000) : EReal := Ideal.div (expo l j) (∑ k : Fin 2000, expo l k)

/-- The shrinkage of one softmax weight: zero at or below the threshold, close to the weight above it. -/
def shrink (s : EReal) : EReal := Ideal.div (max (s - thr) zeroW * s) (max (s - thr) (-(s - thr)) + epsS)

/-- The shrunk weight. -/
def sparse (l : Fin 2000 → EReal) (j : Fin 2000) : EReal := shrink (soft l j)

/-- The shrunk weights renormalised in l1. -/
def weight (l : Fin 2000 → EReal) (j : Fin 2000) : EReal :=
  Ideal.div (sparse l j) (max (∑ k : Fin 2000, max (sparse l k) (-(sparse l k))) epsS)

/-- A row of the result: the memory rows weighted by w, at feature f. -/
def readout (w : Fin 2000 → EReal) (mem : Fin 2000 → Fin 512 → EReal) (f : Fin 512) : EReal :=
  ∑ j : Fin 2000, w j * mem j f

/-- The entropy of one row of weights. -/
def entropy (w : Fin 2000 → EReal) : EReal := ∑ j : Fin 2000, -(w j) * Ideal.log (w j + epsS)

/-! ## The two results as functions of the two argument arrays -/

/-- Row r of the batch. -/
def rowOf (x : (⟨2, ![16384, 512]⟩ : Shape).Idx → EReal) (r : Fin 16384) : Fin 512 → EReal := fun f => x (ix2 r f)

/-- The memory table by rows. -/
def memOf (y : (⟨2, ![2000, 512]⟩ : Shape).Idx → EReal) : Fin 2000 → Fin 512 → EReal := fun j f => y (ix2 j f)

/-- The norms of the memory rows. -/
def memNorm (y : (⟨2, ![2000, 512]⟩ : Shape).Idx → EReal) : Fin 2000 → EReal := fun j => norm (memOf y j)

/-- The final weights of batch row r. -/
def weightsOf (x : (⟨2, ![16384, 512]⟩ : Shape).Idx → EReal) (y : (⟨2, ![2000, 512]⟩ : Shape).Idx → EReal) (r : Fin 16384) :
    Fin 2000 → EReal :=
  weight (logit (rowOf x r) (memOf y) (memNorm y))

/-- The first result: the read-out, 16384 rows of 512 features. -/
def out (x : (⟨2, ![16384, 512]⟩ : Shape).Idx → EReal) (y : (⟨2, ![2000, 512]⟩ : Shape).Idx → EReal) :
    (⟨2, ![16384, 512]⟩ : Shape).Idx → EReal :=
  fun i => readout (weightsOf x y (i 0)) (memOf y) (i 1)

/-- The second result: the entropy loss, a scalar. -/
def loss (x : (⟨2, ![16384, 512]⟩ : Shape).Idx → EReal) (y : (⟨2, ![2000, 512]⟩ : Shape).Idx → EReal) :
    (⟨0, ![]⟩ : Shape).Idx → EReal :=
  fun _ => coef * ∑ r : Fin 16384, entropy (weightsOf x y r)

/-! ## The few laws of the extended reals the two sides differ by -/

/-- The zero word is the extended real zero, so subtracting from it negates. -/
theorem zeroW_sub (a : EReal) : zeroW - a = -a := by
  show Ideal.ofBits .f32 0x00000000#32 - a = -a
  rw [Ideal.ofBits_zero_f32, zero_sub]

/-- A sum started from the zero word is the sum. -/
theorem zeroW_add (a : EReal) : zeroW + a = a := by
  show Ideal.ofBits .f32 0x00000000#32 + a = a
  rw [Ideal.ofBits_zero_f32, zero_add]

/-- The -oo word is the bottom of the extended reals, so a maximum with it is the other operand. -/
theorem negInf_max (a : EReal) : max negInf a = a := by
  show max (Ideal.ofBits .f32 0xFF800000#32) a = a
  simp [Ideal.ofBits, Ideal.ieee]

/-- The 16384 rows are 64 blocks of 256: a sum over the rows is the sum over the blocks of the sums within. -/
theorem sum_rows_blocks (g : Fin 16384 → EReal) :
    ∑ r : Fin 16384, g r
      = ∑ t : Fin 64, ∑ p : Fin 256, g ⟨256 * t.val + p.val, by have := t.isLt; have := p.isLt; omega⟩ := by
  rw [← Fintype.sum_prod_type', ← (finProdFinEquiv (m := 64) (n := 256)).sum_comp]
  refine Finset.sum_congr rfl fun tp _ => ?_
  refine congrArg g (Fin.ext ?_)
  show tp.2.val + 256 * tp.1.val = 256 * tp.1.val + tp.2.val
  omega

end Cert.SparseRead

end
-- ==== Proof.Pieces.lean ====
/-
  What each of the body's three control cases leaves behind, read back as values.

  The body always stores the whole read-out block (the second matrix product) into the output's buffer, and adds the
  block's entropy into a one-word accumulator that it carries from one block to the next. At the first block the
  accumulator is first set to zero, so the block's entropy is added to zero; at the last block the accumulator, after
  the addition, is multiplied by the coefficient and stored as the second result. So: the read-out buffer holds the
  product of this block's weights with the memory table in every case; the accumulator holds zero-plus, or
  previous-plus, this block's entropy; and at the last block the second output holds the coefficient times that.
  Each store writes a whole buffer, so a buffer reads back as the value last stored into it, and a load that follows
  a store of the whole buffer reads the stored value.
-/
import proofs.«167237_j84748294685203_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

/-- Every load and store of the body starts at the origin of its buffer. -/
theorem hz : (![0, 0] : Fin 2 → Nat) = fun _ => 0 := funext fun a => by fin_cases a <;> rfl

/-- The read-out block the body stores, as a function of the three input blocks: the renormalised weights times the
    memory table. -/
abbrev readBlock (x0 : Vec F S256x512 .f32) (x1 : Vec F S2000x512 .f32) (x2 : Vec F S1x2000 .f32) : FVec F S256x512 .f32 :=
  k0_pay2 (k0_pay6 x1) (k0_pay7 x0 x1 x2) (k0_pay8 x0 x1 x2)

/-- The accumulator after the body, from its value before: that value plus the block's entropy. -/
abbrev accStep (x0 : Vec F S256x512 .f32) (x1 : Vec F S2000x512 .f32) (x2 : Vec F S1x2000 .f32) (a : Vec F S1x1 .f32) : FVec F S1x1 .f32 :=
  k0_pay3 (k0_pay7 x0 x1 x2) (k0_pay8 x0 x1 x2) a

/-! ## The first block: the accumulator is zeroed first -/

theorem out_A_3 (c : Dev nD) (i : grid0.Coords) (arg1 : Memref sig .tc .vmem S256x512 .f32) (harg1 : arg1.IsWhole) (arg2 : Memref sig .tc .vmem S2000x512 .f32) (harg2 : arg2.IsWhole) (arg3 : Memref sig .tc .vmem S1x2000 .f32) (harg3 : arg3.IsWhole) (arg4 : Memref sig .tc .vmem S256x512 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 : Vec F S256x512 .f32) (x1 : Vec F S2000x512 .f32) (x2 : Vec F S1x2000 .f32) :
    out0_A_3 c i arg1 harg1 arg2 harg2 arg3 harg3 arg4 harg4 arg5 harg5 arg6 harg6 hc0 hc1 x0 x1 x2 = readBlock x0 x1 x2 := by
  unfold out0_A_3
  rw [View.read_writes_eq_canon _ _ _ (cover0_A_3 c i arg1 harg1 arg2 harg2 arg3 harg3 arg4 harg4 arg5 harg5 arg6 harg6 hc0 hc1 x0 x1 x2)]
  unfold kernelRun0_A
  dsimp only
  sl_unfold_words
  rw [View.canon_unit_zero hz]
  simp only [View.readAt_eq_ld, harg1.read_unread, harg2.read_unread, harg3.read_unread, harg6.read_unread, View.ld_unit_zero (S := S256x512) hz, View.ld_unit_zero (S := S2000x512) hz, View.ld_unit_zero (S := S1x2000) hz, View.ld_unit_zero (S := S1x1) hz]

theorem sout_A_0 (c : Dev nD) (i : grid0.Coords) (arg1 : Memref sig .tc .vmem S256x512 .f32) (harg1 : arg1.IsWhole) (arg2 : Memref sig .tc .vmem S2000x512 .f32) (harg2 : arg2.IsWhole) (arg3 : Memref sig .tc .vmem S1x2000 .f32) (harg3 : arg3.IsWhole) (arg4 : Memref sig .tc .vmem S256x512 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 : Vec F S256x512 .f32) (x1 : Vec F S2000x512 .f32) (x2 : Vec F S1x2000 .f32) :
    sout0_A_0 c i arg1 harg1 arg2 harg2 arg3 harg3 arg4 harg4 arg5 harg5 arg6 harg6 hc0 hc1 x0 x1 x2 = accStep x0 x1 x2 (k0_pay5 (F := F)) := by
  unfold sout0_A_0
  rw [View.read_writes_eq_canon _ _ _ (scover0_A_0 c i arg1 harg1 arg2 harg2 arg3 harg3 arg4 harg4 arg5 harg5 arg6 harg6 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg6.read_unread, View.ld_unit_zero (S := S256x512) hz, View.ld_unit_zero (S := S2000x512) hz, View.ld_unit_zero (S := S1x2000) hz, View.ld_unit_zero (S := S1x1) hz]

/-! ## A middle block: the accumulator carried in -/

theorem out_B_3 (c : Dev nD) (i : grid0.Coords) (arg1 : Memref sig .tc .vmem S256x512 .f32) (harg1 : arg1.IsWhole) (arg2 : Memref sig .tc .vmem S2000x512 .f32) (harg2 : arg2.IsWhole) (arg3 : Memref sig .tc .vmem S1x2000 .f32) (harg3 : arg3.IsWhole) (arg4 : Memref sig .tc .vmem S256x512 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 : Vec F S256x512 .f32) (x1 : Vec F S2000x512 .f32) (x2 : Vec F S1x2000 .f32) (xs0 : Vec F S1x1 .f32) :
    out0_B_3 c i arg1 harg1 arg2 harg2 arg3 harg3 arg4 harg4 arg5 harg5 arg6 harg6 hc0 hc1 x0 x1 x2 xs0 = readBlock x0 x1 x2 := by
  unfold out0_B_3
  rw [View.read_writes_eq_canon _ _ _ (cover0_B_3 c i arg1 harg1 arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg1.read_unread, harg2.read_unread, harg3.read_unread, harg6.read_unread, View.ld_unit_zero (S := S256x512) hz, View.ld_unit_zero (S := S2000x512) hz, View.ld_unit_zero (S := S1x2000) hz, View.ld_unit_zero (S := S1x1) hz]

theorem sout_B_0 (c : Dev nD) (i : grid0.Coords) (arg1 : Memref sig .tc .vmem S256x512 .f32) (harg1 : arg1.IsWhole) (arg2 : Memref sig .tc .vmem S2000x512 .f32) (harg2 : arg2.IsWhole) (arg3 : Memref sig .tc .vmem S1x2000 .f32) (harg3 : arg3.IsWhole) (arg4 : Memref sig .tc .vmem S256x512 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 : Vec F S256x512 .f32) (x1 : Vec F S2000x512 .f32) (x2 : Vec F S1x2000 .f32) (xs0 : Vec F S1x1 .f32) :
    sout0_B_0 c i arg1 harg1 arg2 harg2 arg3 harg3 arg4 harg4 arg5 harg5 arg6 harg6 hc0 hc1 x0 x1 x2 xs0 = accStep x0 x1 x2 xs0 := by
  unfold sout0_B_0
  rw [View.read_writes_eq_canon _ _ _ (scover0_B_0 c i arg1 harg1 arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg1.read_unread, harg2.read_unread, harg3.read_unread, harg6.read_unread, View.ld_unit_zero (S := S256x512) hz, View.ld_unit_zero (S := S2000x512) hz, View.ld_unit_zero (S := S1x2000) hz, View.ld_unit_zero (S := S1x1) hz]

/-! ## The last block: the accumulator, after the addition, scaled into the second output -/

theorem out_C_3 (c : Dev nD) (i : grid0.Coords) (arg1 : Memref sig .tc .vmem S256x512 .f32) (harg1 : arg1.IsWhole) (arg2 : Memref sig .tc .vmem S2000x512 .f32) (harg2 : arg2.IsWhole) (arg3 : Memref sig .tc .vmem S1x2000 .f32) (harg3 : arg3.IsWhole) (arg4 : Memref sig .tc .vmem S256x512 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S256x512 .f32) (x1 : Vec F S2000x512 .f32) (x2 : Vec F S1x2000 .f32) (xs0 : Vec F S1x1 .f32) :
    out0_C_3 c i arg1 harg1 arg2 harg2 arg3 harg3 arg4 harg4 arg5 harg5 arg6 harg6 hc0 hc1 x0 x1 x2 xs0 = readBlock x0 x1 x2 := by
  unfold out0_C_3
  rw [View.read_writes_eq_canon _ _ _ (cover0_C_3 c i arg1 harg1 arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg1.read_unread, harg2.read_unread, harg3.read_unread, harg6.read_unread, View.ld_unit_zero (S := S256x512) hz, View.ld_unit_zero (S := S2000x512) hz, View.ld_unit_zero (S := S1x2000) hz, View.ld_unit_zero (S := S1x1) hz]

theorem sout_C_0 (c : Dev nD) (i : grid0.Coords) (arg1 : Memref sig .tc .vmem S256x512 .f32) (harg1 : arg1.IsWhole) (arg2 : Memref sig .tc .vmem S2000x512 .f32) (harg2 : arg2.IsWhole) (arg3 : Memref sig .tc .vmem S1x2000 .f32) (harg3 : arg3.IsWhole) (arg4 : Memref sig .tc .vmem S256x512 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S256x512 .f32) (x1 : Vec F S2000x512 .f32) (x2 : Vec F S1x2000 .f32) (xs0 : Vec F S1x1 .f32) :
    sout0_C_0 c i arg1 harg1 arg2 harg2 arg3 harg3 arg4 harg4 arg5 harg5 arg6 harg6 hc0 hc1 x0 x1 x2 xs0 = accStep x0 x1 x2 xs0 := by
  unfold sout0_C_0
  rw [View.read_writes_eq_canon _ _ _ (scover0_C_0 c i arg1 harg1 arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg1.read_unread, harg2.read_unread, harg3.read_unread, harg6.read_unread, View.ld_unit_zero (S := S256x512) hz, View.ld_unit_zero (S := S2000x512) hz, View.ld_unit_zero (S := S1x2000) hz, View.ld_unit_zero (S := S1x1) hz]

theorem out_C_4 (c : Dev nD) (i : grid0.Coords) (arg1 : Memref sig .tc .vmem S256x512 .f32) (harg1 : arg1.IsWhole) (arg2 : Memref sig .tc .vmem S2000x512 .f32) (harg2 : arg2.IsWhole) (arg3 : Memref sig .tc .vmem S1x2000 .f32) (harg3 : arg3.IsWhole) (arg4 : Memref sig .tc .vmem S256x512 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S256x512 .f32) (x1 : Vec F S2000x512 .f32) (x2 : Vec F S1x2000 .f32) (xs0 : Vec F S1x1 .f32) :
    out0_C_4 c i arg1 harg1 arg2 harg2 arg3 harg3 arg4 harg4 arg5 harg5 arg6 harg6 hc0 hc1 x0 x1 x2 xs0 = k0_pay4 (accStep x0 x1 x2 xs0) := by
  unfold out0_C_4
  rw [View.read_writes_eq_canon _ _ _ (cover0_C_4 c i arg1 harg1 arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S1x1) _ hz]
  simp only [View.readAt_eq_ld, harg1.read_unread, harg2.read_unread, harg3.read_unread, harg6.read_unread, View.ld_unit_zero (S := S256x512) hz, View.ld_unit_zero (S := S2000x512) hz, View.ld_unit_zero (S := S1x2000) hz, View.ld_unit_zero (S := S1x1) hz]

end Cert.KernelIdeal.Pieces

end
-- ==== Proof.Acc.lean ====
/-
  What the buffers hold after each block, as a recursion on the block's position.

  The read-out buffer holds, after block t, this block's weights times the memory table, whatever the block's
  position. The one-word accumulator holds after the first block zero plus its entropy, and after every later block
  what it held before plus that block's entropy. After the last block the second output's buffer holds the coefficient
  times the accumulator. All three follow by deciding which of the three cases a position falls in.
-/
import proofs.«167237_j84748294685203_1_alg».proof.Proof.Pieces

set_option maxRecDepth 16384

noncomputable section

namespace Cert.KernelIdeal.Acc

open Cert.KernelIdeal Cert.KernelIdeal.Gen Cert.KernelIdeal.Pieces Idealize.ShloMosaic Idealize.ShloMosaic.TcCoe Idealize.SL.Sem

variable {F : FTy → Type} [FloatOps F]
variable (m : (ℓ : Loc nD τ sig) → Buf (Elt F) ℓ)

/-- After any block the read-out buffer holds that block's weights times the memory table. -/
theorem out3_eq (c : Dev nD) (t : Fin cfg0.N) :
    (outsAt0 m c t.val t.isLt).1 = readBlock (iblk m c 0 t) (iblk m c 1 t) (iblk m c 2 t) := by
  have hN : cfg0.N = 64 := N_0
  have ht : t.val < 64 := hN ▸ t.isLt
  by_cases h0 : t.val % 64 = 0
  · have h1 : ¬t.val % 64 = 63 := by omega
    rw [outsAt0_A m c t h0 h1]
    dsimp only
    exact out_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t)
  · by_cases h1 : t.val % 64 = 63
    · rw [outsAt0_C m c t h0 h1]
      dsimp only
      exact out_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2
    · rw [outsAt0_B m c t h0 h1]
      dsimp only
      exact out_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2

/-- After the first block the accumulator holds zero plus its entropy. -/
theorem acc_first (c : Dev nD) (t : Fin cfg0.N) (h0 : t.val % 64 = 0) :
    (outsAt0 m c t.val t.isLt).2.2 = accStep (iblk m c 0 t) (iblk m c 1 t) (iblk m c 2 t) (k0_pay5 (F := F)) := by
  have hN : cfg0.N = 64 := N_0
  have ht : t.val < 64 := hN ▸ t.isLt
  have h1 : ¬t.val % 64 = 63 := by omega
  exact (congrArg (fun o => o.2.2) (outsAt0_A m c t h0 h1)).trans
    (sout_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t))

/-- After a later block it holds what it held before plus that block's entropy. -/
theorem acc_next (c : Dev nD) (t : Fin cfg0.N) (h0 : ¬t.val % 64 = 0) :
    (outsAt0 m c t.val t.isLt).2.2 = accStep (iblk m c 0 t) (iblk m c 1 t) (iblk m c 2 t) (outsAt0 m c (t.val - 1) (Nat.lt_of_le_of_lt (Nat.sub_le _ _) t.isLt)).2.2 := by
  by_cases h1 : t.val % 64 = 63
  · exact (congrArg (fun o => o.2.2) (outsAt0_C m c t h0 h1)).trans
      (sout_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2)
  · exact (congrArg (fun o => o.2.2) (outsAt0_B m c t h0 h1)).trans
      (sout_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2)

/-- After the last block the second output's buffer holds the coefficient times the accumulator. -/
theorem out4_last (c : Dev nD) (t : Fin cfg0.N) (h1 : t.val % 64 = 63) :
    (outsAt0 m c t.val t.isLt).2.1 = k0_pay4 (outsAt0 m c t.val t.isLt).2.2 := by
  have h0 : ¬t.val % 64 = 0 := by omega
  refine (congrArg (fun o => o.2.1) (outsAt0_C m c t h0 h1)).trans ?_
  refine (out_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2).trans ?_
  exact congrArg k0_pay4 (acc_next m c t h0).symm

/-- The accumulator's contents after block n, as the recursion the three cases spell. -/
def accAt (c : Dev nD) : (n : ℕ) → n < cfg0.N → Vec F S1x1 .f32
  | 0, h => accStep (iblk m c 0 ⟨0, h⟩) (iblk m c 1 ⟨0, h⟩) (iblk m c 2 ⟨0, h⟩) (k0_pay5 (F := F))
  | n + 1, h => accStep (iblk m c 0 ⟨n + 1, h⟩) (iblk m c 1 ⟨n + 1, h⟩) (iblk m c 2 ⟨n + 1, h⟩) (accAt c n (Nat.lt_of_succ_lt h))

/-- The accumulator is that recursion, by induction on the block's position. -/
theorem acc_eq (c : Dev nD) : ∀ (n : ℕ) (h : n < cfg0.N), (outsAt0 m c n h).2.2 = accAt m c n h
  | 0, h => acc_first m c ⟨0, h⟩ rfl
  | n + 1, h => by
    have hN : cfg0.N = 64 := N_0
    have hn : n + 1 < 64 := hN ▸ h
    have h0 : ¬(⟨n + 1, h⟩ : Fin cfg0.N).val % 64 = 0 := by dsimp only; omega
    refine (acc_next m c ⟨n + 1, h⟩ h0).trans ?_
    show accStep _ _ _ (outsAt0 m c n _).2.2 = accStep _ _ _ (accAt m c n _)
    rw [acc_eq c n]

end Cert.KernelIdeal.Acc

end
-- ==== Proof.Blocks.lean ====
/-
  Where the kernel's blocks sit in the arrays.

  The grid has 64 points. At point t the batch window's block is rows 256 t .. 256 t + 255 of the batch, all 512
  features; the memory table and the row of memory norms are each one block, the whole array, at every point; the
  read-out window's block is the same rows of the result; the loss window's one block is its one word. The row of
  memory norms is not an argument: the program computes it before the kernel starts, as the square root of each
  memory row's sum of squares, laid out as one row of 2000.
-/
import proofs.«167237_j84748294685203_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The block index of every window at every point: the batch and read-out windows move down one block of rows per
    point, the others stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

/-- Row p, feature f of the batch block at point t is row 256 t + p of the batch. -/
theorem batch_block (c : Dev nD) (t : Fin cfg0.N) (p : Fin 256) (f : Fin 512) (hr : 256 * t.val + p.val < 16384) :
    iblk m c 0 t (ix2 p f) = m ((c : Thread nD τ).loc main_arg0) (ix2 ⟨256 * t.val + p.val, hr⟩ f) := by
  obtain ⟨e0, e1, -⟩ := idx_facts t
  unfold iblk
  rw [View.read_apply]
  show V m c main_arg0 (((cfg0.win 0).blk t).view.emb (ix2 p f)) = _
  refine (congrFun (V_main_arg0 m c) _).trans ?_
  refine congrArg _ (funext fun a => Fin.ext ?_)
  match a with
  | ⟨0, _⟩ => show win0_0.index t (0 : Fin 2) * 256 + 1 * p.val = 256 * t.val + p.val; rw [e0]; omega
  | ⟨1, _⟩ => show win0_0.index t (1 : Fin 2) * 512 + 1 * f.val = f.val; rw [e1]; omega

/-- The memory table's block at any point is the table. -/
theorem table_block (c : Dev nD) (t : Fin cfg0.N) (j : Fin 2000) (f : Fin 512) :
    iblk m c 1 t (ix2 j f) = m ((c : Thread nD τ).loc main_arg1) (ix2 j f) := by
  obtain ⟨-, -, e0, e1, -⟩ := idx_facts t
  unfold iblk
  rw [View.read_apply]
  show V m c main_arg1 (((cfg0.win 1).blk t).view.emb (ix2 j f)) = _
  refine (congrFun (V_main_arg1 m c) _).trans ?_
  refine congrArg _ (funext fun a => Fin.ext ?_)
  match a with
  | ⟨0, _⟩ => show win0_1.index t (0 : Fin 2) * 2000 + 1 * j.val = j.val; rw [e0]; omega
  | ⟨1, _⟩ => show win0_1.index t (1 : Fin 2) * 512 + 1 * f.val = f.val; rw [e1]; omega

/-- The row of memory norms as the kernel finds it: what the program's first five operations leave. -/
theorem norms_array (c : Dev nD) :
    (V m c main_v3 : S1x2000.Idx → Elt F .f32)
      = shapeCast S1x2000 (Host.sqrt (Host.reduceAdd (F := F) (mulf (m ((c : Thread nD τ).loc main_arg1)) (m ((c : Thread nD τ).loc main_arg1)))
          (constant (F := F) S_ .f32 0x00000000#32) reducesTo_S2000x512_S2000_d1 h_S_)) shapeCasts_S2000_S1x2000 := by
  show StableHlo.after hostOps0 (fun b => m (c, b)) (Proc.devRef .tc main_v3) = _
  after_results
  rfl

/-- The norms window's block at any point is that row. -/
theorem norms_block (c : Dev nD) (t : Fin cfg0.N) (j : Fin 2000) :
    iblk m c 2 t (ix2 (0 : Fin 1) j) = (V m c main_v3 : S1x2000.Idx → Elt F .f32) (ix2 (0 : Fin 1) j) := by
  obtain ⟨-, -, -, -, e0, e1, -⟩ := idx_facts t
  unfold iblk
  rw [View.read_apply]
  show V m c main_v3 (((cfg0.win 2).blk t).view.emb (ix2 (0 : Fin 1) j)) = _
  refine congrArg _ (funext fun a => Fin.ext ?_)
  match a with
  | ⟨0, _⟩ => show win0_2.index t (0 : Fin 2) * 1 + 1 * 0 = 0; rw [e0]
  | ⟨1, _⟩ => show win0_2.index t (1 : Fin 2) * 2000 + 1 * j.val = j.val; rw [e1]; omega

end Cert.KernelIdeal.Blocks

end
-- ==== Proof.Payload.lean ====
/-
  The arithmetic terms of the kernel body, read at an index at the ideal instance (floats are extended
  reals), are the row-wise functions of the specification: cosine logits of a block row against the
  memory rows, their softmax, the shrinkage of each softmax weight, the renormalisation in l1, the
  weighted sum of the memory rows, and the entropy of each row of weights.
-/
import proofs.«167237_j84748294685203_1_alg».proof.Proof.Spec
import proofs.«167237_j84748294685203_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.TcCoe Idealize.ShloMosaic.ValueIdx Cert.SparseRead

/-! ## Layout operations at an index given by coordinates -/

section Layout
variable {α : Type}

/-- A vector of n entries viewed as a column [n, 1] reads, at (p, u), the entry p. -/
theorem colCast_apply {n : ℕ} (v : (⟨1, ![n]⟩ : Shape).Idx → α) (h : (⟨1, ![n]⟩ : Shape).ShapeCasts ⟨2, ![n, 1]⟩)
    (p : Fin n) (u : Fin 1) : shapeCast ⟨2, ![n, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column [a, 1] broadcast along the lanes to [a, b] reads, at (p, j), the column's entry p. -/
theorem colBcast_apply {a b : ℕ} (c : (⟨2, ![a, 1]⟩ : Shape).Idx → α) (h : (⟨2, ![a, 1]⟩ : Shape).Broadcasts ⟨2, ![a, b]⟩)
    (p : Fin a) (j : Fin b) : broadcastTo ⟨2, ![a, b]⟩ c h (ix2 p j) = c (ix2 p (0 : Fin 1)) := by
  refine broadcastTo_apply c h (ix2 p j) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else j.val
    rw [if_pos rfl]

end Layout

/-! ## The reductions and contractions of the body read as sums and folds over coordinates -/

/-- The index over (p) with lane k inserted is (p, k). -/
theorem lift_lane {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The index over (u) with row k inserted is (k, u). -/
theorem lift_row {a b : ℕ} (h : (⟨2, ![a, b]⟩ : Shape).Reduces [0] ⟨1, ![b]⟩) (u : Fin b) (k : Fin a) :
    h.lift (ix1 u) k = ix2 k u :=
  funext fun c => Fin.ext (by
    match c with
    | ⟨0, _⟩ => rfl
    | ⟨1, _⟩ => rfl)

/-- A sum along the 2000 lanes, at row p. -/
theorem laneSum2000 (v : FVec Ideal S256x2000 .f32) (p : Fin 256) :
    multiReduction .add [1] S256 v 0x00000000#32 reduces_S256x2000_S256 (.inl rfl) rfl (ix1 p) = ∑ k : Fin 2000, v (ix2 p k) :=
  (Ideal.multiReduction_add_single v _ reduces_S256x2000_S256 (.inl rfl) rfl (ix1 p)).trans
    (Finset.sum_congr rfl fun k _ => congrArg v (lift_lane reduces_S256x2000_S256 p k))

/-- A sum along the 512 lanes, at row p. -/
theorem laneSum512 (v : FVec Ideal S256x512 .f32) (p : Fin 256) :
    multiReduction .add [1] S256 v 0x00000000#32 reduces_S256x512_S256 (.inl rfl) rfl (ix1 p) = ∑ k : Fin 512, v (ix2 p k) :=
  (Ideal.multiReduction_add_single v _ reduces_S256x512_S256 (.inl rfl) rfl (ix1 p)).trans
    (Finset.sum_congr rfl fun k _ => congrArg v (lift_lane reduces_S256x512_S256 p k))

/-- A sum down the 256 rows of a column. -/
theorem rowSum256 (v : FVec Ideal S256x1 .f32) (u : Fin 1) :
    multiReduction .add [0] S1 v 0x00000000#32 reduces_S256x1_S1 (.inl rfl) rfl (ix1 u) = ∑ k : Fin 256, v (ix2 k u) :=
  (Ideal.multiReduction_add_single v _ reduces_S256x1_S1 (.inl rfl) rfl (ix1 u)).trans
    (Finset.sum_congr rfl fun k _ => congrArg v (lift_row reduces_S256x1_S1 u k))

/-- A maximum along the 2000 lanes, at row p: the fold of max from -oo. -/
theorem laneMax2000 (v : FVec Ideal S256x2000 .f32) (p : Fin 256) :
    multiReduction .maximumf [1] S256 v 0xFF800000#32 reduces_S256x2000_S256 (.inl rfl) rfl (ix1 p)
      = (Finset.univ : Finset (Fin 2000)).fold max negInf (fun k => v (ix2 p k)) :=
  (Ideal.multiReduction_maximumf_single v _ reduces_S256x2000_S256 (.inl rfl) rfl (ix1 p)).trans
    (congrArg (fun g => (Finset.univ : Finset (Fin 2000)).fold max negInf g)
      (funext fun k => congrArg v (lift_lane reduces_S256x2000_S256 p k)))

/-- The first contraction (lane axis of both operands), at (p, j): the sum over the 512 features. -/
theorem mm1_apply (x : FVec Ideal S256x512 .bf16) (y : FVec Ideal S2000x512 .bf16) (p : Fin 256) (j : Fin 2000) :
    matmul dot_S256x512_S2000x512_S256x2000_1_1_0_0_n_n none x y (constant S256x2000 .f32 0x00000000#32) (ix2 p j)
      = ∑ f : Fin 512, x (ix2 p f) * y (ix2 j f) := by
  refine (Ideal.matmul_constant_zero_apply dot_S256x512_S2000x512_S256x2000_1_1_0_0_n_n none x y (ix2 p j)).trans ?_
  rw [← Equiv.sum_comp (contrEquiv1 dot_S256x512_S2000x512_S256x2000_1_1_0_0_n_n 512 rfl rfl).symm]
  refine Finset.sum_congr rfl fun k _ => ?_
  have hk := contrEquiv1_symm_val dot_S256x512_S2000x512_S256x2000_1_1_0_0_n_n 512 rfl rfl k
  have el : dot_S256x512_S2000x512_S256x2000_1_1_0_0_n_n.lhsIdx (ix2 p j) ((contrEquiv1 dot_S256x512_S2000x512_S256x2000_1_1_0_0_n_n 512 rfl rfl).symm k) = ix2 p k := funext fun a => Fin.ext (by
    match a with
    | ⟨0, _⟩ =>
      show (dot_S256x512_S2000x512_S256x2000_1_1_0_0_n_n.lhsIdx (ix2 p j) _ 0).val = p.val
      unfold DotDims.lhsIdx
      rw [dif_neg (show ¬(0 : Fin S256x512.rank) ∈ dot_S256x512_S2000x512_S256x2000_1_1_0_0_n_n.lhsBatch by decide), dif_pos (show (0 : Fin S256x512.rank) ∈ dot_S256x512_S2000x512_S256x2000_1_1_0_0_n_n.lhsNonContracting by decide)]
      rfl
    | ⟨1, _⟩ => exact (dot_S256x512_S2000x512_S256x2000_1_1_0_0_n_n.lhsIdx_val_of_single rfl (ix2 p j) _).trans hk)
  have er : dot_S256x512_S2000x512_S256x2000_1_1_0_0_n_n.rhsIdx (ix2 p j) ((contrEquiv1 dot_S256x512_S2000x512_S256x2000_1_1_0_0_n_n 512 rfl rfl).symm k) = ix2 j k := funext fun a => Fin.ext (by
    match a with
    | ⟨0, _⟩ =>
      show (dot_S256x512_S2000x512_S256x2000_1_1_0_0_n_n.rhsIdx (ix2 p j) _ 0).val = j.val
      unfold DotDims.rhsIdx
      rw [dif_neg (show ¬(0 : Fin S2000x512.rank) ∈ dot_S256x512_S2000x512_S256x2000_1_1_0_0_n_n.rhsBatch by decide), dif_pos (show (0 : Fin S2000x512.rank) ∈ dot_S256x512_S2000x512_S256x2000_1_1_0_0_n_n.rhsNonContracting by decide)]
      rfl
    | ⟨1, _⟩ => exact (dot_S256x512_S2000x512_S256x2000_1_1_0_0_n_n.rhsIdx_val_of_single rfl (ix2 p j) _).trans hk)
  rw [el, er]

/-- The second contraction (lanes of the left operand with rows of the right), at (p, f): the sum over the 2000 memory rows. -/
theorem mm2_apply (x : FVec Ideal S256x2000 .bf16) (y : FVec Ideal S2000x512 .bf16) (p : Fin 256) (f : Fin 512) :
    matmul dot_S256x2000_S2000x512_S256x512_1_0_0_1_n_n none x y (constant S256x512 .f32 0x00000000#32) (ix2 p f)
      = ∑ j : Fin 2000, x (ix2 p j) * y (ix2 j f) := by
  refine (Ideal.matmul_constant_zero_apply dot_S256x2000_S2000x512_S256x512_1_0_0_1_n_n none x y (ix2 p f)).trans ?_
  rw [← Equiv.sum_comp (contrEquiv1 dot_S256x2000_S2000x512_S256x512_1_0_0_1_n_n 2000 rfl rfl).symm]
  refine Finset.sum_congr rfl fun k _ => ?_
  have hk := contrEquiv1_symm_val dot_S256x2000_S2000x512_S256x512_1_0_0_1_n_n 2000 rfl rfl k
  have el : dot_S256x2000_S2000x512_S256x512_1_0_0_1_n_n.lhsIdx (ix2 p f) ((contrEquiv1 dot_S256x2000_S2000x512_S256x512_1_0_0_1_n_n 2000 rfl rfl).symm k) = ix2 p k := funext fun a => Fin.ext (by
    match a with
    | ⟨0, _⟩ =>
      show (dot_S256x2000_S2000x512_S256x512_1_0_0_1_n_n.lhsIdx (ix2 p f) _ 0).val = p.val
      unfold DotDims.lhsIdx
      rw [dif_neg (show ¬(0 : Fin S256x2000.rank) ∈ dot_S256x2000_S2000x512_S256x512_1_0_0_1_n_n.lhsBatch by decide), dif_pos (show (0 : Fin S256x2000.rank) ∈ dot_S256x2000_S2000x512_S256x512_1_0_0_1_n_n.lhsNonContracting by decide)]
      rfl
    | ⟨1, _⟩ => exact (dot_S256x2000_S2000x512_S256x512_1_0_0_1_n_n.lhsIdx_val_of_single rfl (ix2 p f) _).trans hk)
  have er : dot_S256x2000_S2000x512_S256x512_1_0_0_1_n_n.rhsIdx (ix2 p f) ((contrEquiv1 dot_S256x2000_S2000x512_S256x512_1_0_0_1_n_n 2000 rfl rfl).symm k) = ix2 k f := funext fun a => Fin.ext (by
    match a with
    | ⟨0, _⟩ => exact (dot_S256x2000_S2000x512_S256x512_1_0_0_1_n_n.rhsIdx_val_of_single rfl (ix2 p f) _).trans hk
    | ⟨1, _⟩ =>
      show (dot_S256x2000_S2000x512_S256x512_1_0_0_1_n_n.rhsIdx (ix2 p f) _ 1).val = f.val
      unfold DotDims.rhsIdx
      rw [dif_neg (show ¬(1 : Fin S2000x512.rank) ∈ dot_S256x2000_S2000x512_S256x512_1_0_0_1_n_n.rhsBatch by decide), dif_pos (show (1 : Fin S2000x512.rank) ∈ dot_S256x2000_S2000x512_S256x512_1_0_0_1_n_n.rhsNonContracting by decide)]
      rfl)
  rw [el, er]

/-! ## The rows the kernel's block values are read by -/

/-- Row p of a 256-row block. -/
def blkRow (x0 : Vec Ideal S256x512 .f32) (p : Fin 256) : Fin 512 → EReal := fun f => x0 (ix2 p f)
/-- The memory table by rows. -/
def memRows (x1 : Vec Ideal S2000x512 .f32) : Fin 2000 → Fin 512 → EReal := fun j f => x1 (ix2 j f)
/-- The memory rows' norms as the kernel is handed them, a [1, 2000] row. -/
def mnRow (x2 : Vec Ideal S1x2000 .f32) : Fin 2000 → EReal := fun j => x2 (ix2 0 j)
/-- The logits of row p of the block. -/
def logits (x0 : Vec Ideal S256x512 .f32) (x1 : Vec Ideal S2000x512 .f32) (x2 : Vec Ideal S1x2000 .f32) (p : Fin 256) : Fin 2000 → EReal :=
  logit (blkRow x0 p) (memRows x1) (mnRow x2)

/-! ## The shrunk softmax weights in three stages: logits, softmax, shrinkage -/

/-- The block of cosine logits as the body computes it. -/
def lgt (x0 : Vec Ideal S256x512 .f32) (x1 : Vec Ideal S2000x512 .f32) (x2 : Vec Ideal S1x2000 .f32) : FVec Ideal S256x2000 .f32 :=
  divf
    (matmul dot_S256x512_S2000x512_S256x2000_1_1_0_0_n_n none (truncf .bf16 x0 bitsLt_bf16_f32) (k0_pay6 x1) (constant S256x2000 .f32 0x00000000#32))
    (maximumf
      (mulf
        (broadcastTo S256x2000 (sqrt (shapeCast S256x1 (multiReduction .add [1] S256 (mulf x0 x0) 0x00000000#32 reduces_S256x512_S256 (.inl rfl) rfl) shapeCasts_S256_S256x1)) broadcasts_S256x1_S256x2000)
        (broadcastTo S256x2000 (shapeCast S1x2000 x2 shapeCasts_S1x2000_S1x2000) broadcasts_S1x2000_S256x2000))
      (broadcast S256x2000 (Scalar.ofBits .f32 0x322BCC77#32)))

/-- The exponentials of a block of logits after each row's maximum is subtracted. -/
def expv (l : FVec Ideal S256x2000 .f32) : FVec Ideal S256x2000 .f32 :=
  exp (subf l (broadcastTo S256x2000 (shapeCast S256x1 (multiReduction .maximumf [1] S256 l 0xFF800000#32 reduces_S256x2000_S256 (.inl rfl) rfl) shapeCasts_S256_S256x1) broadcasts_S256x1_S256x2000))

/-- The row-wise softmax of a block of logits. -/
def smx (l : FVec Ideal S256x2000 .f32) : FVec Ideal S256x2000 .f32 :=
  divf (expv l) (broadcastTo S256x2000 (shapeCast S256x1 (multiReduction .add [1] S256 (expv l) 0x00000000#32 reduces_S256x2000_S256 (.inl rfl) rfl) shapeCasts_S256_S256x1) broadcasts_S256x1_S256x2000)

/-- The shrinkage applied to every entry of a block. -/
def shr (s : FVec Ideal S256x2000 .f32) : FVec Ideal S256x2000 .f32 :=
  divf
    (mulf (maximumf (subf s (broadcast S256x2000 (Scalar.ofBits .f32 0x3A03126F#32))) (broadcast S256x2000 (Scalar.ofBits .f32 0x00000000#32))) s)
    (addf (absf (subf s (broadcast S256x2000 (Scalar.ofBits .f32 0x3A03126F#32)))) (broadcast S256x2000 (Scalar.ofBits .f32 0x2B8CBCCC#32)))

/-- The body's seventh payload is the three stages composed. -/
theorem pay7_eq (x0 : Vec Ideal S256x512 .f32) (x1 : Vec Ideal S2000x512 .f32) (x2 : Vec Ideal S1x2000 .f32) :
    k0_pay7 (F := Ideal) x0 x1 x2 = shr (smx (lgt x0 x1 x2)) := rfl

/-- The shrinkage at an entry is the specification's shrinkage of that entry. -/
theorem shr_apply (s : FVec Ideal S256x2000 .f32) (i : S256x2000.Idx) : shr s i = shrink (s i) := rfl

/-- A row statistic kept as a column and broadcast along the lanes reads, at (p, j), the statistic of row p. -/
theorem rowStat_apply (r : FVec Ideal S256 .f32) (p : Fin 256) (j : Fin 2000) :
    broadcastTo S256x2000 (shapeCast S256x1 r shapeCasts_S256_S256x1) broadcasts_S256x1_S256x2000 (ix2 p j) = r (ix1 p) :=
  (colBcast_apply _ broadcasts_S256x1_S256x2000 p j).trans (colCast_apply r shapeCasts_S256_S256x1 p 0)

/-- The exponentials at (p, j) are the specification's, of row p of the logits. -/
theorem expv_apply (l : FVec Ideal S256x2000 .f32) (p : Fin 256) (j : Fin 2000) :
    expv l (ix2 p j) = expo (fun k => l (ix2 p k)) j := by
  show Ideal.exp (l (ix2 p j) - _) = Ideal.exp (l (ix2 p j) - rowMax fun k => l (ix2 p k))
  exact congrArg (fun m => Ideal.exp (l (ix2 p j) - m)) ((rowStat_apply _ p j).trans (laneMax2000 l p))

/-- The softmax at (p, j) is the specification's, of row p of the logits. -/
theorem smx_apply (l : FVec Ideal S256x2000 .f32) (p : Fin 256) (j : Fin 2000) :
    smx l (ix2 p j) = soft (fun k => l (ix2 p k)) j := by
  show Ideal.div (expv l (ix2 p j)) _ = Ideal.div (expo (fun k => l (ix2 p k)) j) (∑ k : Fin 2000, expo (fun k => l (ix2 p k)) k)
  rw [expv_apply]
  refine congrArg (Ideal.div _) ?_
  refine ((rowStat_apply _ p j).trans (laneSum2000 (expv l) p)).trans ?_
  exact Finset.sum_congr rfl fun k _ => expv_apply l p k

/-- The logits at (p, j) are the specification's cosine logits of row p of the block. -/
theorem lgt_apply (x0 : Vec Ideal S256x512 .f32) (x1 : Vec Ideal S2000x512 .f32) (x2 : Vec Ideal S1x2000 .f32)
    (p : Fin 256) (j : Fin 2000) : lgt x0 x1 x2 (ix2 p j) = logits x0 x1 x2 p j := by
  show Ideal.div (matmul dot_S256x512_S2000x512_S256x2000_1_1_0_0_n_n none (truncf .bf16 x0 bitsLt_bf16_f32) (k0_pay6 x1) (constant S256x2000 .f32 0x00000000#32) (ix2 p j))
      (max (broadcastTo S256x2000 (sqrt (F := Ideal) (φ := .f32) (shapeCast S256x1 (multiReduction .add [1] S256 (mulf (F := Ideal) (φ := .f32) x0 x0) 0x00000000#32 reduces_S256x512_S256 (.inl rfl) rfl) shapeCasts_S256_S256x1)) broadcasts_S256x1_S256x2000 (ix2 p j)
        * (broadcastTo S256x2000 (shapeCast S1x2000 x2 shapeCasts_S1x2000_S1x2000) broadcasts_S1x2000_S256x2000 (ix2 p j) : EReal)) epsCos)
    = Ideal.div (∑ f : Fin 512, x0 (ix2 p f) * x1 (ix2 j f))
        (max (Ideal.sqrt (∑ f : Fin 512, x0 (ix2 p f) * x0 (ix2 p f)) * x2 (ix2 0 j)) epsCos)
  rw [mm1_apply, colBcast_apply, broadcastTo_1b_ab_apply, shapeCast_self]
  show Ideal.div (∑ f : Fin 512, x0 (ix2 p f) * x1 (ix2 j f))
      (max (Ideal.sqrt (shapeCast S256x1 (multiReduction .add [1] S256 (mulf (F := Ideal) (φ := .f32) x0 x0) 0x00000000#32 reduces_S256x512_S256 (.inl rfl) rfl) shapeCasts_S256_S256x1 (ix2 p 0)) * x2 (ix2 0 j)) epsCos) = _
  rw [colCast_apply, laneSum512]
  rfl

/-! ## The payloads -/

/-- The shrunk softmax weights of the block, at (p, j). -/
theorem pay7_apply (x0 : Vec Ideal S256x512 .f32) (x1 : Vec Ideal S2000x512 .f32) (x2 : Vec Ideal S1x2000 .f32) (p : Fin 256) (j : Fin 2000) :
    k0_pay7 (F := Ideal) x0 x1 x2 (ix2 p j) = sparse (logits x0 x1 x2 p) j := by
  rw [pay7_eq, shr_apply, smx_apply]
  show shrink (soft (fun k => lgt x0 x1 x2 (ix2 p k)) j) = shrink (soft (logits x0 x1 x2 p) j)
  rw [show (fun k => lgt x0 x1 x2 (ix2 p k)) = logits x0 x1 x2 p from funext fun k => lgt_apply x0 x1 x2 p k]

/-- Their absolute values. -/
theorem pay8_apply (x0 : Vec Ideal S256x512 .f32) (x1 : Vec Ideal S2000x512 .f32) (x2 : Vec Ideal S1x2000 .f32) (p : Fin 256) (j : Fin 2000) :
    k0_pay8 (F := Ideal) x0 x1 x2 (ix2 p j) = max (sparse (logits x0 x1 x2 p) j) (-(sparse (logits x0 x1 x2 p) j)) := by
  show max (k0_pay7 (F := Ideal) x0 x1 x2 (ix2 p j)) (-(k0_pay7 (F := Ideal) x0 x1 x2 (ix2 p j))) = _
  rw [pay7_apply]

/-- The renormalisation of any block v39 by the lane sums of any block v40, at (p, j). -/
theorem pay1_gen (v39 v40 : FVec Ideal S256x2000 .f32) (p : Fin 256) (j : Fin 2000) :
    k0_pay1 (F := Ideal) v39 v40 (ix2 p j) = Ideal.div (v39 (ix2 p j)) (max (∑ k : Fin 2000, v40 (ix2 p k)) epsS) := by
  show Ideal.div (v39 (ix2 p j))
      (broadcastTo S256x2000
        (maximumf (F := Ideal) (φ := .f32) (shapeCast S256x1 (multiReduction .add [1] S256 v40 0x00000000#32 reduces_S256x2000_S256 (.inl rfl) rfl) shapeCasts_S256_S256x1)
          (broadcast S256x1 (Scalar.ofBits .f32 0x2B8CBCCC#32)))
        broadcasts_S256x1_S256x2000 (ix2 p j)) = _
  rw [colBcast_apply]
  show Ideal.div (v39 (ix2 p j))
      (max (shapeCast S256x1 (multiReduction .add [1] S256 v40 0x00000000#32 reduces_S256x2000_S256 (.inl rfl) rfl) shapeCasts_S256_S256x1 (ix2 p 0)) epsS) = _
  rw [colCast_apply, laneSum2000]

/-- The renormalised weights, at (p, j). -/
theorem pay1_apply (x0 : Vec Ideal S256x512 .f32) (x1 : Vec Ideal S2000x512 .f32) (x2 : Vec Ideal S1x2000 .f32) (p : Fin 256) (j : Fin 2000) :
    k0_pay1 (F := Ideal) (k0_pay7 x0 x1 x2) (k0_pay8 x0 x1 x2) (ix2 p j) = weight (logits x0 x1 x2 p) j := by
  rw [pay1_gen, pay7_apply]
  show _ = Ideal.div (sparse (logits x0 x1 x2 p) j) (max (∑ k : Fin 2000, max (sparse (logits x0 x1 x2 p) k) (-(sparse (logits x0 x1 x2 p) k))) epsS)
  rw [Finset.sum_congr rfl fun k _ => pay8_apply x0 x1 x2 p k]

/-- The weighted sum of any table v8 by the renormalised block, at (p, f). -/
theorem pay2_gen (v8 : FVec Ideal S2000x512 .bf16) (v39 v40 : FVec Ideal S256x2000 .f32) (p : Fin 256) (f : Fin 512) :
    k0_pay2 (F := Ideal) v8 v39 v40 (ix2 p f) = ∑ j : Fin 2000, k0_pay1 (F := Ideal) v39 v40 (ix2 p j) * v8 (ix2 j f) := by
  show matmul dot_S256x2000_S2000x512_S256x512_1_0_0_1_n_n none (truncf .bf16 (k0_pay1 (F := Ideal) v39 v40) bitsLt_bf16_f32) v8 (constant S256x512 .f32 0x00000000#32) (ix2 p f) = _
  rw [mm2_apply]
  rfl

/-- The read-out, at (p, f). -/
theorem pay2_apply (x0 : Vec Ideal S256x512 .f32) (x1 : Vec Ideal S2000x512 .f32) (x2 : Vec Ideal S1x2000 .f32) (p : Fin 256) (f : Fin 512) :
    k0_pay2 (F := Ideal) (k0_pay6 x1) (k0_pay7 x0 x1 x2) (k0_pay8 x0 x1 x2) (ix2 p f) = readout (weight (logits x0 x1 x2 p)) (memRows x1) f := by
  rw [pay2_gen]
  show _ = ∑ j : Fin 2000, weight (logits x0 x1 x2 p) j * x1 (ix2 j f)
  exact Finset.sum_congr rfl fun j _ => by rw [pay1_apply]; rfl

/-- The entropy terms of a block of weights, entry by entry. -/
def ent (w : FVec Ideal S256x2000 .f32) : FVec Ideal S256x2000 .f32 :=
  mulf (subf (broadcast S256x2000 (Scalar.ofBits .f32 0x00000000#32)) w)
    (log (addf w (broadcast S256x2000 (Scalar.ofBits .f32 0x2B8CBCCC#32))))

/-- An entropy term at an entry. -/
theorem ent_apply (w : FVec Ideal S256x2000 .f32) (i : S256x2000.Idx) :
    ent w i = (zeroW - w i) * Ideal.log (w i + epsS) := rfl

/-- The body's third payload: the accumulator plus the block's entropy terms summed along the lanes and then down the rows. -/
theorem pay3_eq (v39 v40 : FVec Ideal S256x2000 .f32) (v60 : Vec Ideal S1x1 .f32) :
    k0_pay3 (F := Ideal) v39 v40 v60
      = shapeCast S1x1
          (addf v60
            (shapeCast S1x1
              (multiReduction .add [0] S1
                (shapeCast S256x1 (multiReduction .add [1] S256 (ent (k0_pay1 (F := Ideal) v39 v40)) 0x00000000#32 reduces_S256x2000_S256 (.inl rfl) rfl) shapeCasts_S256_S256x1)
                0x00000000#32 reduces_S256x1_S1 (.inl rfl) rfl)
              shapeCasts_S1_S1x1))
          shapeCasts_S1x1_S1x1 := rfl

/-- The accumulated entropy for any two blocks, at the one index. -/
theorem pay3_gen (v39 v40 : FVec Ideal S256x2000 .f32) (v60 : Vec Ideal S1x1 .f32) (y : S1x1.Idx) :
    k0_pay3 (F := Ideal) v39 v40 v60 y
      = v60 y + ∑ p : Fin 256, ∑ j : Fin 2000,
          (zeroW - k0_pay1 (F := Ideal) v39 v40 (ix2 p j)) * Ideal.log (k0_pay1 (F := Ideal) v39 v40 (ix2 p j) + epsS) := by
  obtain ⟨a, b, rfl⟩ : ∃ (a : Fin 1) (b : Fin 1), y = ix2 a b := ⟨y 0, y 1, eq_ix2 y⟩
  rw [pay3_eq, shapeCast_self]
  show v60 (ix2 a b)
      + shapeCast S1x1
          (multiReduction .add [0] S1
            (shapeCast S256x1 (multiReduction .add [1] S256 (ent (k0_pay1 (F := Ideal) v39 v40)) 0x00000000#32 reduces_S256x2000_S256 (.inl rfl) rfl) shapeCasts_S256_S256x1)
            0x00000000#32 reduces_S256x1_S1 (.inl rfl) rfl)
          shapeCasts_S1_S1x1 (ix2 a b) = _
  rw [shapeCast_a_1a_apply, rowSum256]
  refine congrArg (v60 (ix2 a b) + ·) (Finset.sum_congr rfl fun p _ => ?_)
  rw [colCast_apply, laneSum2000]
  exact Finset.sum_congr rfl fun j _ => ent_apply _ _

/-- The accumulator plus the entropies of the block's 256 rows of weights. -/
theorem pay3_apply (x0 : Vec Ideal S256x512 .f32) (x1 : Vec Ideal S2000x512 .f32) (x2 : Vec Ideal S1x2000 .f32)
    (v60 : Vec Ideal S1x1 .f32) (y : S1x1.Idx) :
    k0_pay3 (F := Ideal) (k0_pay7 x0 x1 x2) (k0_pay8 x0 x1 x2) v60 y = v60 y + ∑ p : Fin 256, entropy (weight (logits x0 x1 x2 p)) := by
  rw [pay3_gen]
  refine congrArg (v60 y + ·) (Finset.sum_congr rfl fun p _ => ?_)
  show _ = ∑ j : Fin 2000, -(weight (logits x0 x1 x2 p) j) * Ideal.log (weight (logits x0 x1 x2 p) j + epsS)
  exact Finset.sum_congr rfl fun j _ => by rw [pay1_apply, zeroW_sub]

/-- The scaling of the accumulated entropy by the coefficient. -/
theorem pay4_apply (v68 : Vec Ideal S1x1 .f32) (y : S1x1.Idx) : k0_pay4 (F := Ideal) v68 y = v68 y * coef := rfl

/-- The value the accumulator starts from is the zero word. -/
theorem pay5_apply (y : S1x1.Idx) : k0_pay5 (F := Ideal) y = zeroW := by
  show shapeCast S1x1 (broadcast S1x1 (Scalar.ofBits (F := Ideal) .f32 0x00000000#32)) shapeCasts_S1x1_S1x1 y = zeroW
  rw [shapeCast_self]
  rfl

end Cert.KernelIdeal.Pay

end
-- ==== Proof.KernelValue.lean ====
/-
  What the kernel's program computes, read off its run: the two results as the specification's two functions.

  The run leaves, block by block, what each case of the body stores. Three facts turn that into the results.
  (1) A block is rows of the arguments: the batch block at point t is rows 256 t .. 256 t + 255 of the batch, the
  memory table's block is the table, and the row of norms the program computed beforehand is the memory rows'
  euclidean norms; so the weights the body computes for row p of block t are the specification's weights of row
  256 t + p. (2) Every point writes its 256 rows of the read-out back, and these blocks tile the 16384 rows, so the
  first result is the read-out of every row. (3) The accumulator after block n is zero plus the entropies of blocks
  0 .. n, by induction on n; the 64 block entropies add up to the 16384 row entropies, since addition on the extended
  reals is commutative and associative; the last point writes the accumulator times the coefficient back, and the
  program reshapes that one word to a scalar: the second result, the coefficient times the total entropy.
-/
import proofs.«167237_j84748294685203_1_alg».proof.Proof.Spec
import proofs.«167237_j84748294685203_1_alg».proof.Proof.Acc
import proofs.«167237_j84748294685203_1_alg».proof.Proof.Blocks
import proofs.«167237_j84748294685203_1_alg».proof.Proof.Payload
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Result

open Cert.KernelIdeal Cert.KernelIdeal.Gen Cert.KernelIdeal.Pieces Cert.KernelIdeal.Acc Cert.KernelIdeal.Blocks Cert.KernelIdeal.Pay
open Idealize.ShloMosaic Idealize.ShloMosaic.TcCoe Idealize.ShloMosaic.ValueIdx Idealize.SL.Sem Cert.SparseRead
open Idealize.ShloMosaic.Pipeline (Dat)

variable (m : (ℓ : Loc nD τ sig) → Buf (Elt Ideal) ℓ) (ρ : Dev nD → PrngReg)

/-- The batch and the memory table as the program is launched with them. -/
abbrev batch (c : Dev nD) : S16384x512.Idx → EReal := m ((c : Thread nD τ).loc main_arg0)
abbrev table (c : Dev nD) : S2000x512.Idx → EReal := m ((c : Thread nD τ).loc main_arg1)

/-! ## The blocks as rows of the arguments -/

/-- Row p of the batch block at point t is row 256 t + p of the batch. -/
theorem row_eq (c : Dev nD) (t : Fin cfg0.N) (p : Fin 256) (hr : 256 * t.val + p.val < 16384) :
    blkRow (iblk m c 0 t) p = rowOf (batch m c) ⟨256 * t.val + p.val, hr⟩ :=
  funext fun f => batch_block m c t p f hr

/-- The memory table's block is the table. -/
theorem table_eq (c : Dev nD) (t : Fin cfg0.N) : memRows (iblk m c 1 t) = memOf (table m c) :=
  funext fun j => funext fun f => table_block m c t j f

/-- The reduced index j of a sum over the features of the table, with feature k put back, is (j, k). -/
theorem lift_row (h : S2000x512.Reduces [1] S2000) (j : Fin 2000) (k : Fin (S2000x512.size 1)) :
    h.lift (ix1 j) k = ix2 j (⟨k.val, k.isLt⟩ : Fin 512) :=
  funext fun a => Fin.ext (by match a with | ⟨0, _⟩ => rfl | ⟨1, _⟩ => rfl)

/-- The row of norms the program computes before the kernel starts is the memory rows' norms. -/
theorem norm_at (c : Dev nD) (j : Fin 2000) :
    (V m c main_v3 : S1x2000.Idx → EReal) (ix2 (0 : Fin 1) j) = Cert.SparseRead.norm (memOf (table m c) j) := by
  rw [norms_array]
  refine (shapeCast_a_1a_apply _ shapeCasts_S2000_S1x2000 0 j).trans ?_
  unfold Cert.SparseRead.norm
  simp only [Host.sqrt, Host.reduceAdd, Ideal.hostUnary_sqrt_def, Ideal.hostReduceAdd_def]
  refine congrArg Ideal.sqrt ?_
  rw [Ideal.hostReduceAdd_single reducesTo_S2000x512_S2000_d1 (by decide)]
  refine (zeroW_add _).trans ?_
  refine Finset.sum_congr rfl fun k _ => ?_
  rw [lift_row]
  rfl

/-- So the norms window's block is the memory rows' norms. -/
theorem norms_eq (c : Dev nD) (t : Fin cfg0.N) : mnRow (iblk m c 2 t) = memNorm (table m c) :=
  funext fun j => (norms_block m c t j).trans (norm_at m c j)

/-- The weights the kernel computes for row p of the block at point t are those of row 256 t + p of the batch. -/
theorem weights_block (c : Dev nD) (t : Fin cfg0.N) (p : Fin 256) (hr : 256 * t.val + p.val < 16384) :
    weight (logits (iblk m c 0 t) (iblk m c 1 t) (iblk m c 2 t) p) = weightsOf (batch m c) (table m c) ⟨256 * t.val + p.val, hr⟩ := by
  unfold logits weightsOf
  rw [row_eq m c t p hr, table_eq, norms_eq]

/-- The read-out block at point t is rows 256 t .. of the first result. -/
theorem readBlock_apply (c : Dev nD) (t : Fin cfg0.N) (p : Fin 256) (f : Fin 512) (hr : 256 * t.val + p.val < 16384) :
    readBlock (iblk m c 0 t) (iblk m c 1 t) (iblk m c 2 t) (ix2 p f)
      = out (batch m c) (table m c) (ix2 ⟨256 * t.val + p.val, hr⟩ f) := by
  refine (pay2_apply (iblk m c 0 t) (iblk m c 1 t) (iblk m c 2 t) p f).trans ?_
  rw [weights_block m c t p hr, table_eq]
  rfl

/-! ## The accumulator in closed form -/

/-- The entropy of the block at position k (zero past the grid, where no block is). -/
def blockEnt (c : Dev nD) (k : ℕ) : EReal :=
  if hk : k < cfg0.N then ∑ p : Fin 256, entropy (weight (logits (iblk m c 0 ⟨k, hk⟩) (iblk m c 1 ⟨k, hk⟩) (iblk m c 2 ⟨k, hk⟩) p)) else 0

/-- After block n the accumulator holds zero plus the entropies of blocks 0 .. n. -/
theorem accAt_closed (c : Dev nD) (y : S1x1.Idx) : ∀ (n : ℕ) (h : n < cfg0.N),
    accAt m c n h y = zeroW + ∑ k ∈ Finset.range (n + 1), blockEnt m c k
  | 0, h => by
    show accStep (iblk m c 0 ⟨0, h⟩) (iblk m c 1 ⟨0, h⟩) (iblk m c 2 ⟨0, h⟩) (k0_pay5 (F := Ideal)) y = _
    refine (pay3_apply _ _ _ _ y).trans ?_
    rw [pay5_apply, Finset.sum_range_one, blockEnt, dif_pos h]
  | n + 1, h => by
    show accStep (iblk m c 0 ⟨n + 1, h⟩) (iblk m c 1 ⟨n + 1, h⟩) (iblk m c 2 ⟨n + 1, h⟩) (accAt m c n (Nat.lt_of_succ_lt h)) y = _
    refine (pay3_apply _ _ _ _ y).trans ?_
    rw [accAt_closed c y n (Nat.lt_of_succ_lt h), Finset.sum_range_succ _ (n + 1), ← add_assoc]
    congr 1
    rw [blockEnt, dif_pos h]

/-- The entropies of the 64 blocks add up to the entropies of the 16384 rows. -/
theorem blocks_total (c : Dev nD) :
    ∑ k ∈ Finset.range 64, blockEnt m c k = ∑ r : Fin 16384, entropy (weightsOf (batch m c) (table m c) r) := by
  have hN : cfg0.N = 64 := N_0
  rw [sum_rows_blocks, ← Fin.sum_univ_eq_sum_range (fun k => blockEnt m c k) 64]
  refine Finset.sum_congr rfl fun t _ => ?_
  have ht : t.val < cfg0.N := by rw [hN]; exact t.isLt
  rw [blockEnt, dif_pos ht]
  refine Finset.sum_congr rfl fun p _ => ?_
  rw [weights_block m c ⟨t.val, ht⟩ p]

/-! ## The first result: every point writes back its rows -/

/-- What point t writes back of the read-out window is block t of the first result. -/
theorem flushed_out (c : Dev nD) (t : Fin cfg0.N) :
    (dats m 0 c).flushed 3 t = ((cfg0.win 3).blk t).view.read (Elt Ideal) (out (batch m c) (table m c)) := by
  have hN : cfg0.N = 64 := N_0
  have ht : t.val < 64 := hN ▸ t.isLt
  obtain ⟨-, -, -, -, -, -, e0, e1, -⟩ := idx_facts t
  show (cfg0.win 3).cut (grid0.coords t) ((dats m 0 c).after 3 t) = _
  rw [after0_3, out3_eq]
  funext y
  obtain ⟨p, f, rfl⟩ : ∃ (p : Fin 256) (f : Fin 512), y = ix2 p f := ⟨y 0, y 1, eq_ix2 y⟩
  have hr : 256 * t.val + p.val < 16384 := by have := p.isLt; omega
  rw [View.read_apply]
  show readBlock (iblk m c 0 t) (iblk m c 1 t) (iblk m c 2 t) (ix2 p f)
    = out (batch m c) (table m c) (((cfg0.win 3).blk t).view.emb (ix2 p f))
  rw [readBlock_apply m c t p f hr]
  refine congrArg _ (funext fun a => Fin.ext ?_)
  match a with
  | ⟨0, _⟩ => show 256 * t.val + p.val = win0_3.index t (0 : Fin 2) * 256 + 1 * p.val; rw [e0]; omega
  | ⟨1, _⟩ => show f.val = win0_3.index t (1 : Fin 2) * 512 + 1 * f.val; rw [e1]; omega

/-- An index of the first result is in point t's block iff each coordinate is in the block's range on its axis. -/
theorem mem_out_block (t : Fin cfg0.N) (i : S16384x512.Idx) :
    i ∈ ((cfg0.win 3).blk t).view.set ↔ ∀ a : Fin 2, win0_3.index t a * S256x512.size a ≤ (i a).val ∧ (i a).val < win0_3.index t a * S256x512.size a + S256x512.size a := by
  show i ∈ ((View.whole main_v4_0).slice (win0_3.rect t)).set ↔ _
  rw [View.set_slice_whole, Rect.mem_set_unit]
  exact Iff.rfl

/-- Every row of the first result is in the block of the point its number divided by 256 names. -/
theorem cover_out (i : S16384x512.Idx) :
    ∃ t : Fin cfg0.N, (cfg0.win 3).flush t = true ∧ i ∈ ((cfg0.win 3).blk t).view.set := by
  have hN : cfg0.N = 64 := N_0
  have hi0 : (i 0).val < 16384 := (i 0).isLt
  have hi1 : (i 1).val < 512 := (i 1).isLt
  have hq : (i 0).val / 256 < cfg0.N := by rw [hN]; omega
  obtain ⟨-, -, -, -, -, -, e0, e1, -⟩ := idx_facts ⟨(i 0).val / 256, hq⟩
  refine ⟨⟨(i 0).val / 256, hq⟩, flush0_3 _, ?_⟩
  rw [mem_out_block]
  intro a
  match a with
  | ⟨0, _⟩ =>
    show win0_3.index ⟨(i 0).val / 256, hq⟩ (0 : Fin 2) * 256 ≤ (i 0).val ∧ (i 0).val < win0_3.index ⟨(i 0).val / 256, hq⟩ (0 : Fin 2) * 256 + 256
    rw [e0]; dsimp only; omega
  | ⟨1, _⟩ =>
    show win0_3.index ⟨(i 0).val / 256, hq⟩ (1 : Fin 2) * 512 ≤ (i 1).val ∧ (i 1).val < win0_3.index ⟨(i 0).val / 256, hq⟩ (1 : Fin 2) * 512 + 512
    rw [e1]; omega

/-- So the first result's array ends holding the read-out of every row. -/
theorem final_out (c : Dev nD) : (dats m 0 c).arrAt 3 cfg0.N = out (batch m c) (table m c) :=
  (dats m 0 c).arrAt_eq_of_cover 3 (out (batch m c) (table m c)) (fun t _ => flushed_out m c t) cover_out

/-! ## The second result: the last point writes back the scaled accumulator -/

/-- The one word the last point writes back: zero plus all the rows' entropies, times the coefficient. -/
def lossWord (c : Dev nD) : S1x1.Idx → EReal :=
  fun _ => (zeroW + ∑ r : Fin 16384, entropy (weightsOf (batch m c) (table m c) r)) * coef

/-- What the last point writes back of the loss window is that word. -/
theorem flushed_loss (c : Dev nD) (t : Fin cfg0.N) (hf : (cfg0.win 4).flush t = true) :
    (dats m 0 c).flushed 4 t = ((cfg0.win 4).blk t).view.read (Elt Ideal) (lossWord m c) := by
  have hN : cfg0.N = 64 := N_0
  have h1 : t.val % 64 = 63 := (flush0_4 t).mp hf
  have h63 : t.val = 63 := by have := t.isLt; omega
  show (cfg0.win 4).cut (grid0.coords t) ((dats m 0 c).after 4 t) = _
  rw [after0_4, out4_last m c t h1, acc_eq]
  funext y
  rw [View.read_apply]
  show k0_pay4 (F := Ideal) (accAt m c t.val t.isLt) y = lossWord m c (((cfg0.win 4).blk t).view.emb y)
  refine (pay4_apply _ y).trans ?_
  rw [accAt_closed m c y t.val t.isLt, h63, blocks_total]
  rfl

/-- The loss window's one block is its whole one-word array. -/
theorem mem_loss_block (t : Fin cfg0.N) (i : S1x1.Idx) :
    i ∈ ((cfg0.win 4).blk t).view.set ↔ ∀ a : Fin 2, win0_4.index t a * S1x1.size a ≤ (i a).val ∧ (i a).val < win0_4.index t a * S1x1.size a + S1x1.size a := by
  show i ∈ ((View.whole main_v4_1).slice (win0_4.rect t)).set ↔ _
  rw [View.set_slice_whole, Rect.mem_set_unit]
  exact Iff.rfl

theorem cover_loss (i : S1x1.Idx) :
    ∃ t : Fin cfg0.N, (cfg0.win 4).flush t = true ∧ i ∈ ((cfg0.win 4).blk t).view.set := by
  have hN : cfg0.N = 64 := N_0
  have hq : 63 < cfg0.N := by rw [hN]; omega
  have hi0 : (i 0).val < 1 := (i 0).isLt
  have hi1 : (i 1).val < 1 := (i 1).isLt
  obtain ⟨-, -, -, -, -, -, -, -, e0, e1⟩ := idx_facts ⟨63, hq⟩
  refine ⟨⟨63, hq⟩, (flush0_4 _).mpr rfl, ?_⟩
  rw [mem_loss_block]
  intro a
  match a with
  | ⟨0, _⟩ =>
    show win0_4.index ⟨63, hq⟩ (0 : Fin 2) * 1 ≤ (i 0).val ∧ (i 0).val < win0_4.index ⟨63, hq⟩ (0 : Fin 2) * 1 + 1
    rw [e0]; omega
  | ⟨1, _⟩ =>
    show win0_4.index ⟨63, hq⟩ (1 : Fin 2) * 1 ≤ (i 1).val ∧ (i 1).val < win0_4.index ⟨63, hq⟩ (1 : Fin 2) * 1 + 1
    rw [e1]; omega

/-- So the loss window's array ends holding that word. -/
theorem final_loss (c : Dev nD) : (dats m 0 c).arrAt 4 cfg0.N = lossWord m c :=
  (dats m 0 c).arrAt_eq_of_cover 4 (lossWord m c) (flushed_loss m c) cover_loss

/-- After the kernel the program reshapes the one-word array to a scalar: the second result. -/
theorem tail_loss (c : Dev nD) :
    Pipeline.afterTail₀ cfgs (dats m) 0 (V0 m) [hostOps1] c main_v5 = loss (batch m c) (table m c) := by
  unfold Pipeline.afterTail₀
  show StableHlo.after hostOps1 _ (Proc.devRef .tc main_v5) = _
  after_results
  rw [(Pipeline.withArrays_arr spec0 launch0.win.arr_inj c _ _ 4).trans (final_loss m c)]
  funext i
  obtain rfl : i = ix0 := eq_ix0 i
  refine (shapeCast_apply (lossWord m c) shapeCasts_S1x1_S_ ix0 (ix2 (0 : Fin 1) (0 : Fin 1)) (by decide)).trans ?_
  show (zeroW + _) * coef = coef * _
  rw [zeroW_add, mul_comm]

/-! ## The run, read -/

/-- Every weakly fair execution of the program terminates with the two results at the specification's two functions of
    the arguments, and the arguments unchanged. -/
theorem run : θ_run defs (onTc (τ := τ) (main (F := Ideal))) ⟨m, fun _ => 0, ρ⟩ fun r => ∀ c : Dev nD,
      r.2.mem ((c : Thread nD τ).loc main_v4_0) = out (batch m c) (table m c)
      ∧ r.2.mem ((c : Thread nD τ).loc main_v5) = loss (batch m c) (table m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).1 3).trans (final_out m c),
     ((h c).2 main_v5 (by decide)).trans (tail_loss m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.Result

end
-- ==== Proof.RefValue.lean ====
/-
  The reference side: the two results of the idealized reference program are the two functions of the
  specification. Each stage of the program is read at an index (r, j) of the 16384 x 2000 array of
  weights, or at a row r, and identified with the specification's quantity of that row.
-/
import proofs.«167237_j84748294685203_1_alg».proof.Proof.Spec
import proofs.«167237_j84748294685203_1_alg».proof.Proof.Gen.ReferenceIdeal.Read
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Cert.SparseRead

/-! ## The norms -/

theorem idx_c0v1 (r : Fin 16384) (c : Fin 1) (k : Fin 512) :
    idx_main_call0_v1 (idx_main_call0_v2 (ix2 r c)) k = ix2 r k := by
  funext a; match a with | ⟨0, _⟩ => rfl | ⟨1, _⟩ => rfl

/-- The norm of batch row r. -/
theorem v1_at (x0 : (⟨S16384x512, .f32⟩ : BufTy).Contents (Elt Ideal)) (r : Fin 16384) (c : Fin 1) :
    val_main_v1 (F := Ideal) x0 (ix2 r c) = norm (rowOf x0 r) := by
  rw [val_main_v1_apply, val_main_call0_v2_apply, val_main_call0_v1_apply]
  simp only [idx_c0v1, val_main_call0_v0_apply, val_main_call0_cst_apply, Ideal.hostUnary_sqrt_def, Ideal.mulf_def, Ideal.ofBits_def]
  rw [zeroW_add]
  rfl

theorem idx_v4 (r : Fin 16384) (j : Fin 2000) : idx_main_v4 (ix2 r j) = ix2 r (0 : Fin 1) := by
  funext a; match a with | ⟨0, _⟩ => rfl | ⟨1, _⟩ => rfl

/-- The norm of batch row r, spread along the row of weights. -/
theorem v4_at (x0 : (⟨S16384x512, .f32⟩ : BufTy).Contents (Elt Ideal)) (r : Fin 16384) (j : Fin 2000) :
    val_main_v4 (F := Ideal) x0 (ix2 r j) = norm (rowOf x0 r) := by
  rw [val_main_v4_apply, idx_v4, v1_at]

theorem idx_c1v1 (r : Fin 16384) (j : Fin 2000) (k : Fin 512) :
    idx_main_call1_v1 (idx_main_call1_v2 (idx_main_v3 (idx_main_v5 (ix2 r j)))) k = ix2 j k := by
  funext a; match a with | ⟨0, _⟩ => rfl | ⟨1, _⟩ => rfl

/-- The norm of memory row j, spread along the column of weights. -/
theorem v5_at (x1 : (⟨S2000x512, .f32⟩ : BufTy).Contents (Elt Ideal)) (r : Fin 16384) (j : Fin 2000) :
    val_main_v5 (F := Ideal) x1 (ix2 r j) = memNorm x1 j := by
  rw [val_main_v5_apply, val_main_v3_apply, val_main_v2_apply, val_main_call1_v2_apply, val_main_call1_v1_apply]
  simp only [idx_c1v1, val_main_call1_v0_apply, val_main_call1_cst_apply, Ideal.hostUnary_sqrt_def, Ideal.mulf_def, Ideal.ofBits_def]
  rw [zeroW_add]
  rfl

/-! ## The logits -/

theorem lidx_v0 (r : Fin 16384) (j : Fin 2000) (k : Fin 512) : lidx_main_v0 (ix2 r j) k = ix2 r k := by
  funext a; match a with | ⟨0, _⟩ => rfl | ⟨1, _⟩ => rfl

theorem ridx_v0 (r : Fin 16384) (j : Fin 2000) (k : Fin 512) : ridx_main_v0 (ix2 r j) k = ix2 j k := by
  funext a; match a with | ⟨0, _⟩ => rfl | ⟨1, _⟩ => rfl

/-- The cosine logit of batch row r against memory row j. -/
theorem v9_at (x0 : (⟨S16384x512, .f32⟩ : BufTy).Contents (Elt Ideal)) (x1 : (⟨S2000x512, .f32⟩ : BufTy).Contents (Elt Ideal))
    (r : Fin 16384) (j : Fin 2000) :
    val_main_v9 (F := Ideal) x0 x1 (ix2 r j) = logit (rowOf x0 r) (memOf x1) (memNorm x1) j := by
  rw [val_main_v9_apply, val_main_v0_apply, val_main_v8_apply, val_main_v6_apply, v4_at, v5_at, val_main_v7_apply,
    val_main_cst_apply]
  simp only [lidx_v0, ridx_v0, Ideal.hostDivf_def, Ideal.mulf_def, Ideal.maximumf_def, Ideal.ofBits_def]
  rfl

/-! ## The row maximum -/

theorem reduces_d1 : S16384x2000.Reduces [1] S16384 := by decide

/-- Row r with column k put back is (r, k). -/
theorem lift_row (h : S16384x2000.Reduces [1] S16384) (r : Fin 16384) (k : Fin (S16384x2000.size 1)) :
    h.lift (ix1 r) k = ix2 r (⟨k.val, k.isLt⟩ : Fin 2000) := by
  funext c; apply Fin.ext
  fin_cases c <;> rfl

/-- The fold of max over row r of the logits, from -oo. -/
theorem v10_at (x0 : (⟨S16384x512, .f32⟩ : BufTy).Contents (Elt Ideal)) (x1 : (⟨S2000x512, .f32⟩ : BufTy).Contents (Elt Ideal))
    (r : Fin 16384) :
    val_main_v10 (F := Ideal) x0 x1 (ix1 r) = rowMax (logit (rowOf x0 r) (memOf x1) (memNorm x1)) := by
  have hf : (val_main_v9 (F := Ideal) x0 x1 ∘ reduces_d1.lift (ix1 r)) = logit (rowOf x0 r) (memOf x1) (memNorm x1) :=
    funext fun k => (congrArg (val_main_v9 (F := Ideal) x0 x1) (lift_row reduces_d1 r k)).trans (v9_at x0 x1 r _)
  have e := Host.reduce_eq_fold_single (FloatOps.maximumf (F := Ideal) (φ := .f32)) (val_main_v9 (F := Ideal) x0 x1) (val_main_cst_0 (F := Ideal))
    reducesTo_S16384x2000_S16384_d1 reduces_d1 h_S_ (ix1 r)
  refine e.trans ?_
  exact congrArg (fun f => Finset.fold max negInf f (Finset.univ : Finset (Fin 2000))) hf

/-- The row maximum the program subtracts. -/
theorem v12_at (x0 : (⟨S16384x512, .f32⟩ : BufTy).Contents (Elt Ideal)) (x1 : (⟨S2000x512, .f32⟩ : BufTy).Contents (Elt Ideal))
    (r : Fin 16384) :
    val_main_v12 (F := Ideal) x0 x1 (ix1 r) = rowMax (logit (rowOf x0 r) (memOf x1) (memNorm x1)) := by
  rw [val_main_v12_apply, val_main_v11_apply, val_main_cst_1_apply, v10_at]
  exact negInf_max _

/-! ## The softmax -/

theorem idx_v14 (r : Fin 16384) (j : Fin 2000) : idx_main_v13 (idx_main_v14 (ix2 r j)) = ix1 r := by
  funext a; match a with | ⟨0, _⟩ => rfl

/-- The exponential of the logit less the row maximum. -/
theorem v16_at (x0 : (⟨S16384x512, .f32⟩ : BufTy).Contents (Elt Ideal)) (x1 : (⟨S2000x512, .f32⟩ : BufTy).Contents (Elt Ideal))
    (r : Fin 16384) (j : Fin 2000) :
    val_main_v16 (F := Ideal) x0 x1 (ix2 r j) = expo (logit (rowOf x0 r) (memOf x1) (memNorm x1)) j := by
  rw [val_main_v16_apply, val_main_v15_apply, v9_at, val_main_v14_apply, val_main_v13_apply, idx_v14, v12_at]
  rfl

theorem idx_v17 (r : Fin 16384) (k : Fin 2000) : idx_main_v17 (ix1 r) k = ix2 r k := by
  funext a; match a with | ⟨0, _⟩ => rfl | ⟨1, _⟩ => rfl

/-- The sum of the exponentials along row r. -/
theorem v17_at (x0 : (⟨S16384x512, .f32⟩ : BufTy).Contents (Elt Ideal)) (x1 : (⟨S2000x512, .f32⟩ : BufTy).Contents (Elt Ideal))
    (r : Fin 16384) :
    val_main_v17 (F := Ideal) x0 x1 (ix1 r) = ∑ k : Fin 2000, expo (logit (rowOf x0 r) (memOf x1) (memNorm x1)) k := by
  rw [val_main_v17_apply, val_main_cst_2_apply]
  simp only [idx_v17, v16_at, Ideal.ofBits_def]
  exact zeroW_add _

theorem idx_v19 (r : Fin 16384) (j : Fin 2000) : idx_main_v18 (idx_main_v19 (ix2 r j)) = ix1 r := by
  funext a; match a with | ⟨0, _⟩ => rfl

/-- The softmax weight. -/
theorem v20_at (x0 : (⟨S16384x512, .f32⟩ : BufTy).Contents (Elt Ideal)) (x1 : (⟨S2000x512, .f32⟩ : BufTy).Contents (Elt Ideal))
    (r : Fin 16384) (j : Fin 2000) :
    val_main_v20 (F := Ideal) x0 x1 (ix2 r j) = soft (logit (rowOf x0 r) (memOf x1) (memNorm x1)) j := by
  rw [val_main_v20_apply, v16_at, val_main_v19_apply, val_main_v18_apply, idx_v19, v17_at]
  rfl

/-! ## The shrinkage -/

/-- The shrunk weight. -/
theorem v30_at (x0 : (⟨S16384x512, .f32⟩ : BufTy).Contents (Elt Ideal)) (x1 : (⟨S2000x512, .f32⟩ : BufTy).Contents (Elt Ideal))
    (r : Fin 16384) (j : Fin 2000) :
    val_main_v30 (F := Ideal) x0 x1 (ix2 r j) = sparse (logit (rowOf x0 r) (memOf x1) (memNorm x1)) j := by
  rw [val_main_v30_apply, val_main_v24_apply, val_main_v29_apply, val_main_v23_apply, val_main_v27_apply,
    val_main_v22_apply, val_main_v26_apply, v20_at, val_main_v21_apply, val_main_v25_apply, val_main_v28_apply,
    val_main_call2_v0_apply, val_main_cst_3_apply, val_main_cst_4_apply, val_main_cst_5_apply, val_main_call2_cst_apply]
  rfl

/-! ## The renormalisation -/

theorem idx_v32 (r : Fin 16384) (k : Fin 2000) : idx_main_v32 (ix1 r) k = ix2 r k := by
  funext a; match a with | ⟨0, _⟩ => rfl | ⟨1, _⟩ => rfl

/-- The sum of the absolute values of the shrunk weights of row r. -/
theorem v32_at (x0 : (⟨S16384x512, .f32⟩ : BufTy).Contents (Elt Ideal)) (x1 : (⟨S2000x512, .f32⟩ : BufTy).Contents (Elt Ideal))
    (r : Fin 16384) :
    val_main_v32 (F := Ideal) x0 x1 (ix1 r)
      = ∑ k : Fin 2000, max (sparse (logit (rowOf x0 r) (memOf x1) (memNorm x1)) k)
          (-(sparse (logit (rowOf x0 r) (memOf x1) (memNorm x1)) k)) := by
  rw [val_main_v32_apply, val_main_cst_6_apply]
  simp only [idx_v32, val_main_v31_apply, v30_at, Ideal.ofBits_def]
  exact zeroW_add _

theorem idx_v36 (r : Fin 16384) (j : Fin 2000) : idx_main_v33 (idx_main_v36 (ix2 r j)) = ix1 r := by
  funext a; match a with | ⟨0, _⟩ => rfl

/-- The final weight: the shrunk weight over the row's l1 norm, the norm kept away from zero. -/
theorem v37_at (x0 : (⟨S16384x512, .f32⟩ : BufTy).Contents (Elt Ideal)) (x1 : (⟨S2000x512, .f32⟩ : BufTy).Contents (Elt Ideal))
    (r : Fin 16384) (j : Fin 2000) :
    val_main_v37 (F := Ideal) x0 x1 (ix2 r j) = weightsOf x0 x1 r j := by
  rw [val_main_v37_apply, v30_at, val_main_v36_apply, val_main_v35_apply, val_main_v33_apply, idx_v36, v32_at,
    val_main_v34_apply, val_main_cst_7_apply]
  rfl

/-! ## The two results -/

theorem lidx_v38 (r : Fin 16384) (f : Fin 512) (k : Fin 2000) : lidx_main_v38 (ix2 r f) k = ix2 r k := by
  funext a; match a with | ⟨0, _⟩ => rfl | ⟨1, _⟩ => rfl

theorem ridx_v38 (r : Fin 16384) (f : Fin 512) (k : Fin 2000) : ridx_main_v38 (ix2 r f) k = ix2 k f := by
  funext a; match a with | ⟨0, _⟩ => rfl | ⟨1, _⟩ => rfl

/-- The first result is the read-out of the memory rows by the final weights. -/
theorem out_eq (x0 : (⟨S16384x512, .f32⟩ : BufTy).Contents (Elt Ideal)) (x1 : (⟨S2000x512, .f32⟩ : BufTy).Contents (Elt Ideal)) :
    val_main_v38 (F := Ideal) x0 x1 = Cert.SparseRead.out x0 x1 := by
  funext i
  obtain ⟨r, f, rfl⟩ : ∃ (r : Fin 16384) (f : Fin 512), i = ix2 r f := ⟨i 0, i 1, eq_ix2 i⟩
  rw [val_main_v38_apply]
  simp only [lidx_v38, ridx_v38, v37_at]
  rfl

/-- One term of the entropy. -/
theorem v43_at (x0 : (⟨S16384x512, .f32⟩ : BufTy).Contents (Elt Ideal)) (x1 : (⟨S2000x512, .f32⟩ : BufTy).Contents (Elt Ideal))
    (r : Fin 16384) (j : Fin 2000) :
    val_main_v43 (F := Ideal) x0 x1 (ix2 r j) = -(weightsOf x0 x1 r j) * Ideal.log (weightsOf x0 x1 r j + epsS) := by
  rw [val_main_v43_apply, val_main_v39_apply, val_main_v42_apply, val_main_v41_apply, v37_at, val_main_v40_apply,
    val_main_cst_8_apply]
  rfl

/-- The second result is the coefficient times the sum over the rows of the row entropies. -/
theorem loss_eq (x0 : (⟨S16384x512, .f32⟩ : BufTy).Contents (Elt Ideal)) (x1 : (⟨S2000x512, .f32⟩ : BufTy).Contents (Elt Ideal)) :
    val_main_v45 (F := Ideal) x0 x1 = Cert.SparseRead.loss x0 x1 := by
  funext i
  rw [val_main_v45_apply, val_main_v44_apply, val_main_cst_10_apply, val_main_cst_9_apply]
  have hs : (∑ j : S16384x2000.Idx, val_main_v43 (F := Ideal) x0 x1 j)
      = ∑ r : Fin 16384, entropy (weightsOf x0 x1 r) := by
    refine (sum_idx2 (M := EReal) (n0 := 16384) (n1 := 2000) (val_main_v43 (F := Ideal) x0 x1)).trans ?_
    refine Finset.sum_congr rfl fun r _ => ?_
    exact Finset.sum_congr rfl fun j _ => v43_at x0 x1 r j
  rw [hs]
  show coef * (zeroW + ∑ r : Fin 16384, entropy (weightsOf x0 x1 r)) = coef * ∑ r : Fin 16384, entropy (weightsOf x0 x1 r)
  rw [zeroW_add]

end Cert.ReferenceIdeal.RefValue

end
-- ==== Proof.lean ====
/-
  The kernel against its reference, over the extended reals.

  Both programs take a batch of 16384 rows of 512 features and a table of 2000 memory rows. For each batch row they
  form the cosine logits against the memory rows, a softmax of them, a shrinkage of each softmax weight about a
  threshold, and an l1 renormalisation; the first result is the weighted sum of the memory rows, the second the
  coefficient times the total entropy of the weights (Proof/Spec.lean states this once, row by row).

  The kernel does it 256 rows at a time over a grid of 64 points, adding each block's entropy into a one-word
  accumulator; the reference does it on whole arrays and sums the entropy over all rows and columns at once. On the
  extended reals the two are the same function of the arguments: a change of float format is the identity, a matrix
  product into a zero accumulator is the host's product, a lane sum is the host's sum, the block-by-block
  accumulation is the one total sum because addition is commutative and associative (also at the infinities), the
  reference's extra maximum with minus infinity changes nothing, and zero minus w is minus w. No step uses that the
  inputs are finite, so the precondition is never opened.

  The three frames are the generated ones (the reference's is its generated run with the results dropped); the ideal
  pass rewrote nothing, so there is nothing to preserve beyond the program's own text.
-/
import proofs.«167237_j84748294685203_1_alg».proof.Defs
import proofs.«167237_j84748294685203_1_alg».proof.Proof.Gen.Kernel
import proofs.«167237_j84748294685203_1_alg».proof.Proof.Gen.Kernel.Skeleton
import proofs.«167237_j84748294685203_1_alg».proof.Proof.Gen.Kernel.Launch
import proofs.«167237_j84748294685203_1_alg».proof.Proof.Gen.Kernel.Points
import proofs.«167237_j84748294685203_1_alg».proof.Proof.Gen.Kernel.Frame
import proofs.«167237_j84748294685203_1_alg».proof.Proof.Gen.KernelIdeal
import proofs.«167237_j84748294685203_1_alg».proof.Proof.Gen.KernelIdeal.Skeleton
import proofs.«167237_j84748294685203_1_alg».proof.Proof.Gen.KernelIdeal.Launch
import proofs.«167237_j84748294685203_1_alg».proof.Proof.Gen.KernelIdeal.Points
import proofs.«167237_j84748294685203_1_alg».proof.Proof.Gen.KernelIdeal.Frame
import proofs.«167237_j84748294685203_1_alg».proof.Proof.Gen.ReferenceIdeal
import proofs.«167237_j84748294685203_1_alg».proof.Proof.Gen.Pre_finite_inputs
import proofs.«167237_j84748294685203_1_alg».proof.Proof.Gen.ReferenceIdeal.Run
import proofs.«167237_j84748294685203_1_alg».proof.Proof.Gen.ReferenceIdeal.Read
import proofs.«167237_j84748294685203_1_alg».proof.Proof.KernelValue
import proofs.«167237_j84748294685203_1_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the batch and the table, the kernel's program ends with its two results at the
    specification's read-out and loss of them, and so does the reference. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v38_eq, Cert.ReferenceIdeal.RefValue.out_eq, (hagree c).1, (hagree c).2]
  · rw [(h c).2.1, Cert.ReferenceIdeal.Read.val_main_v45_eq, Cert.ReferenceIdeal.RefValue.loss_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
